-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x128 : Shape := ⟨2, ![1600000, 128]⟩
abbrev S2x100000 : Shape := ⟨2, ![2, 100000]⟩
abbrev S20000x128 : Shape := ⟨2, ![20000, 128]⟩
abbrev S100000 : Shape := ⟨1, ![100000]⟩
abbrev S100000x16 : Shape := ⟨2, ![100000, 16]⟩
abbrev S20000x16 : Shape := ⟨2, ![20000, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S100000x16 : S_.BroadcastsInDim S100000x16 (![] : Fin 0 → Fin S100000x16.rank)
  reducesTo_S100000x16_S_d0_1 : S100000x16.ReducesTo [0, 1] S_
  bcast_S_S20000x16 : S_.BroadcastsInDim S20000x16 (![] : Fin 0 → Fin S20000x16.rank)
  reducesTo_S20000x16_S_d0_1 : S20000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S16x128 : S_.BroadcastsInDim S16x128 (![] : Fin 0 → Fin S16x128.rank)
  reducesTo_S16x128_S_d0_1 : S16x128.ReducesTo [0, 1] S_

variable [Facts]

def fn_part5 {F : FTy → Type} [FloatOps F] (main_arg21 : FVec F S128 .f32) (main_v83 : IVec S_ 1) (main_v84 : FVec F S16x128 .f32) (main_cst_32 : FVec F S_ .f32) : IVec S_ 1 :=
  let main_v85 : FVec F S16x128 .f32 := broadcastInDim S16x128 ![] bcast_S_S16x128 main_cst_32
  let main_v86 : IVec S16x128 1 := cmpf .olt main_v84 main_v85
  let main_c_33 : IVec S_ 1 := constantI S_ 1 1#1
  let main_v87 : IVec S_ 1 := (fun x v => Host.reduce IntOp.andi x v reducesTo_S16x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg17 : FVec F S128 .f32) (main_arg18 : FVec F S16x128 .f32) (main_arg19 : FVec F S128 .f32) (main_arg20 : FVec F S16x128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S16x128 .f32 := Host.absf main_arg18
  let main_cst_28 : FVec F S_ .f32 := constant S_ .f32 0x7F800000#32
  let main_v75 : FVec F S16x128 .f32 := broadcastInDim S16x128 ![] bcast_S_S16x128 main_cst_28
  let main_v76 : IVec S16x128 1 := cmpf .olt main_v74 main_v75
  let main_c_29 : IVec S_ 1 := constantI S_ 1 1#1
  let main_v77 : IVec S_ 1 := (fun x v => Host.reduce IntOp.andi x v reducesTo_S16x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S16x128 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S16x128 .f32) (main_arg15 : FVec F S128 .f32) (main_arg16 : FVec F S16x128 .f32) (main_arg17 : FVec F S128 .f32) (main_arg18 : FVec F S16x128 .f32) (main_arg19 : FVec F S128 .f32) (main_arg20 : FVec F S16x128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S16x128 .f32 := Host.absf main_arg14
  let main_cst_20 : FVec F S_ .f32 := constant S_ .f32 0x7F800000#32
  let main_v55 : FVec F S16x128 .f32 := broadcastInDim S16x128 ![] bcast_S_S16x128 main_cst_20
  let main_v56 : IVec S16x128 1 := cmpf .olt main_v54 main_v55
  let main_c_21 : IVec S_ 1 := constantI S_ 1 1#1
  let main_v57 : IVec S_ 1 := (fun x v => Host.reduce IntOp.andi x v reducesTo_S16x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S16x128 .f32 := Host.absf main_arg16
  let main_cst_24 : FVec F S_ .f32 := constant S_ .f32 0x7F800000#32
  let main_v65 : FVec F S16x128 .f32 := broadcastInDim S16x128 ![] bcast_S_S16x128 main_cst_24
  let main_v66 : IVec S16x128 1 := cmpf .olt main_v64 main_v65
  let main_c_25 : IVec S_ 1 := constantI S_ 1 1#1
  let main_v67 : IVec S_ 1 := (fun x v => Host.reduce IntOp.andi x v reducesTo_S16x128_S_d0_1 h_S_) main_v66 main_c_25
  fn_part4 (F := F) main_arg17 main_arg18 main_arg19 main_arg20 main_arg21 main_v63 main_v67

def fn_part2 {F : FTy → Type} [FloatOps F] (main_arg10 : FVec F S128x256 .f32) (main_arg11 : FVec F S256 .f32) (main_arg12 : FVec F S256x128 .f32) (main_arg13 : FVec F S128 .f32) (main_arg14 : FVec F S16x128 .f32) (main_arg15 : FVec F S128 .f32) (main_arg16 : FVec F S16x128 .f32) (main_arg17 : FVec F S128 .f32) (main_arg18 : FVec F S16x128 .f32) (main_arg19 : FVec F S128 .f32) (main_arg20 : FVec F S16x128 .f32) (main_arg21 : FVec F S128 .f32) (main_v33 : IVec S_ 1) : IVec S_ 1 :=
  let main_v34 : FVec F S128x256 .f32 := Host.absf main_arg10
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg12
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_v48 main_v49 main_v50

def fn_part1 {F : FTy → Type} [FloatOps F] (main_arg7 : FVec F S20000x16 .f32) (main_arg8 : FVec F S128x128 .f32) (main_arg9 : FVec F S128 .f32) (main_arg10 : FVec F S128x256 .f32) (main_arg11 : FVec F S256 .f32) (main_arg12 : FVec F S256x128 .f32) (main_arg13 : FVec F S128 .f32) (main_arg14 : FVec F S16x128 .f32) (main_arg15 : FVec F S128 .f32) (main_arg16 : FVec F S16x128 .f32) (main_arg17 : FVec F S128 .f32) (main_arg18 : FVec F S16x128 .f32) (main_arg19 : FVec F S128 .f32) (main_arg20 : FVec F S16x128 .f32) (main_arg21 : FVec F S128 .f32) (main_v13 : IVec S_ 1) (main_v16 : IVec S100000x16 1) : IVec S_ 1 :=
  let main_c_5 : IVec S_ 1 := constantI S_ 1 1#1
  let main_v17 : IVec S_ 1 := (fun x v => Host.reduce IntOp.andi x v reducesTo_S100000x16_S_d0_1 h_S_) main_v16 main_c_5
  let main_v18 : IVec S_ 1 := andi main_v13 main_v17
  let main_v19 : FVec F S20000x16 .f32 := Host.absf main_arg7
  let main_cst_6 : FVec F S_ .f32 := constant S_ .f32 0x7F800000#32
  let main_v20 : FVec F S20000x16 .f32 := broadcastInDim S20000x16 ![] bcast_S_S20000x16 main_cst_6
  let main_v21 : IVec S20000x16 1 := cmpf .olt main_v19 main_v20
  let main_c_7 : IVec S_ 1 := constantI S_ 1 1#1
  let main_v22 : IVec S_ 1 := (fun x v => Host.reduce IntOp.andi x v reducesTo_S20000x16_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1600000 32) (main_arg2 : FVec F S1600000x128 .f32) (main_arg3 : IVec S2x100000 32) (main_arg4 : FVec F S20000x128 .f32) (main_arg5 : IVec S100000 32) (main_arg6 : FVec F S100000x16 .f32) (main_arg7 : FVec F S20000x16 .f32) (main_arg8 : FVec F S128x128 .f32) (main_arg9 : FVec F S128 .f32) (main_arg10 : FVec F S128x256 .f32) (main_arg11 : FVec F S256 .f32) (main_arg12 : FVec F S256x128 .f32) (main_arg13 : FVec F S128 .f32) (main_arg14 : FVec F S16x128 .f32) (main_arg15 : FVec F S128 .f32) (main_arg16 : FVec F S16x128 .f32) (main_arg17 : FVec F S128 .f32) (main_arg18 : FVec F S16x128 .f32) (main_arg19 : FVec F S128 .f32) (main_arg20 : FVec F S16x128 .f32) (main_arg21 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg2
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S20000x128 .f32 := Host.absf main_arg4
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S100000x16 .f32 := Host.absf main_arg6
  let main_cst_4 : FVec F S_ .f32 := constant S_ .f32 0x7F800000#32
  let main_v15 : FVec F S100000x16 .f32 := broadcastInDim S100000x16 ![] bcast_S_S100000x16 main_cst_4
  let main_v16 : IVec S100000x16 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S1600000x128 : Shape := ⟨2, ![1600000, 128]⟩
abbrev S2x100000 : Shape := ⟨2, ![2, 100000]⟩
abbrev S20000x128 : Shape := ⟨2, ![20000, 128]⟩
abbrev S100000 : Shape := ⟨1, ![100000]⟩
abbrev S100000x16 : Shape := ⟨2, ![100000, 16]⟩
abbrev S20000x16 : Shape := ⟨2, ![20000, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S16x128 : Shape := ⟨2, ![16, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩
abbrev S1700000x128 : Shape := ⟨2, ![1700000, 128]⟩
abbrev S5000x16 : Shape := ⟨2, ![5000, 16]⟩
abbrev S1x100000 : Shape := ⟨2, ![1, 100000]⟩
abbrev S4000x128 : Shape := ⟨2, ![4000, 128]⟩
abbrev S4000x16 : Shape := ⟨2, ![4000, 16]⟩
abbrev S4000x256 : Shape := ⟨2, ![4000, 256]⟩
abbrev S1x256 : Shape := ⟨2, ![1, 256]⟩

abbrev nBuf : Space → Nat
  | .hbm => 84
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x128, .f32⟩
  | .hbm, ⟨3, _⟩ => ⟨S2x100000, .i32⟩
  | .hbm, ⟨4, _⟩ => ⟨S20000x128, .f32⟩
  | .hbm, ⟨5, _⟩ => ⟨S100000, .i32⟩
  | .hbm, ⟨6, _⟩ => ⟨S100000x16, .f32⟩
  | .hbm, ⟨7, _⟩ => ⟨S20000x16, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S16x128, .f32⟩
  | .hbm, ⟨15, _⟩ => ⟨S128, .f32⟩
  | .hbm, ⟨16, _⟩ => ⟨S16x128, .f32⟩
  | .hbm, ⟨17, _⟩ => ⟨S128, .f32⟩
  | .hbm, ⟨18, _⟩ => ⟨S16x128, .f32⟩
  | .hbm, ⟨19, _⟩ => ⟨S128, .f32⟩
  | .hbm, ⟨20, _⟩ => ⟨S16x128, .f32⟩
  | .hbm, ⟨21, _⟩ => ⟨S128, .f32⟩
  | .hbm, ⟨22, _⟩ => ⟨S100000, .i32⟩
  | .hbm, ⟨23, _⟩ => ⟨S1x1600000, .i32⟩
  | .hbm, ⟨24, _⟩ => ⟨S1600000, .i32⟩
  | .hbm, ⟨25, _⟩ => ⟨S1700000, .i32⟩
  | .hbm, ⟨26, _⟩ => ⟨S1x1600000, .i32⟩
  | .hbm, ⟨27, _⟩ => ⟨S1600000, .i32⟩
  | .hbm, ⟨28, _⟩ => ⟨S1700000, .i32⟩
  | .hbm, ⟨29, _⟩ => ⟨S_, .f32⟩
  | .hbm, ⟨30, _⟩ => ⟨S1700000, .f32⟩
  | .hbm, ⟨31, _⟩ => ⟨S_, .f32⟩
  | .hbm, ⟨32, _⟩ => ⟨S100000, .f32⟩
  | .hbm, ⟨33, _⟩ => ⟨S1700000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .i1⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S20000x128, .f32⟩
  | .hbm, ⟨64, _⟩ => ⟨S100000x1, .i32⟩
  | .hbm, ⟨65, _⟩ => ⟨S20000x128, .f32⟩
  | .hbm, ⟨66, _⟩ => ⟨S1x100000, .i32⟩
  | .hbm, ⟨67, _⟩ => ⟨S100000, .i32⟩
  | .hbm, ⟨68, _⟩ => ⟨S1x100000, .i32⟩
  | .hbm, ⟨69, _⟩ => ⟨S100000, .i32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x128, .f32⟩
  | .hbm, ⟨79, _⟩ => ⟨S_, .f32⟩
  | .hbm, ⟨80, _⟩ => ⟨S20000x128, .f32⟩
  | .hbm, ⟨81, _⟩ => ⟨S100000x1, .i32⟩
  | .hbm, ⟨82, _⟩ => ⟨S20000x128, .f32⟩
  | .hbm, ⟨83, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x16, .f32⟩
  | .local _ .vmem, ⟨9, _⟩ => ⟨S5000x16, .f32⟩
  | .local _ .vmem, ⟨10, _⟩ => ⟨S16x128, .f32⟩
  | .local _ .vmem, ⟨11, _⟩ => ⟨S128, .f32⟩
  | .local _ .vmem, ⟨12, _⟩ => ⟨S16x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S4000x128, .f32⟩
  | .local _ .vmem, ⟨21, _⟩ => ⟨S4000x128, .f32⟩
  | .local _ .vmem, ⟨22, _⟩ => ⟨S128x256, .f32⟩
  | .local _ .vmem, ⟨23, _⟩ => ⟨S256, .f32⟩
  | .local _ .vmem, ⟨24, _⟩ => ⟨S256x128, .f32⟩
  | .local _ .vmem, ⟨25, _⟩ => ⟨S128, .f32⟩
  | .local _ .vmem, ⟨26, _⟩ => ⟨S4000x16, .f32⟩
  | .local _ .vmem, ⟨27, _⟩ => ⟨S4000x16, .f32⟩
  | .local _ .vmem, ⟨28, _⟩ => ⟨S16x128, .f32⟩
  | .local _ .vmem, ⟨29, _⟩ => ⟨S128, .f32⟩
  | .local _ .vmem, ⟨30, _⟩ => ⟨S16x128, .f32⟩
  | .local _ .vmem, ⟨31, _⟩ => ⟨S128, .f32⟩
  | .local _ .vmem, ⟨32, _⟩ => ⟨S4000x128, .f32⟩
  | .local _ .vmem, ⟨33, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_1 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_9 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S16x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  shapeCasts_S5000x128_S5000x128 : S5000x128.ShapeCasts S5000x128
  bcast_S_S20000x128 : S_.BroadcastsInDim S20000x128 (![] : Fin 0 → Fin S20000x128.rank)
  bcast_S100000_S100000x1_0 : S100000.BroadcastsInDim S100000x1 (![0] : Fin 1 → Fin S100000x1.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  broadcasts_S1x128_S4000x128 : S1x128.Broadcasts S4000x128
  inb_S4000x16_S4000x16_0_0 : ∀ a, (![0, 0] : Fin 2 → Nat) a + S4000x16.size a ≤ S4000x16.size a
  h_S4000x16 : 0 < S4000x16.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x16_S16x128_S5000x128_1_0_0_1_n_n_wf : DotDims.WF S5000x16 S16x128 S5000x128 [1] [0] [0] [1] [] []
  scatter_S20000x128_S100000x1_S100000x128_1_0_0_1_wf : ScatterDims.WF S20000x128 S100000x1 S100000x128 [1] [0] [0] 1
  gather_S20000x128_S100000x1_S100000x128_1_0_n_n_0_1_1128_wf : GatherDims.WF S20000x128 S100000x1 S100000x128 [1] [0] [] [0] [] 1 ![1, 128]
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  dot_S4000x16_S16x128_S4000x128_1_0_0_1_n_n_wf : DotDims.WF S4000x16 S16x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .f32 = 32 ∨ (Rect.block (s := S100000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x16.size a ≤ S20000x16.size a
  hwx2_5 : ∀ i : grid2.Coords, EltTy.bits .f32 = 32 ∨ (Rect.block (s := S20000x16) S4000x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x128.size a ≤ S16x128.size a
  hwx2_6 : ∀ i : grid2.Coords, EltTy.bits .f32 = 32 ∨ (Rect.block (s := S16x128) S16x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16x128.size a ≤ S16x128.size a
  hwx2_8 : ∀ i : grid2.Coords, EltTy.bits .f32 = 32 ∨ (Rect.block (s := S16x128) S16x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S20000x128.size a
  hwx2_10 : ∀ i : grid2.Coords, EltTy.bits .f32 = 32 ∨ (Rect.block (s := S20000x128) S4000x128.size (cc2_transform_10 i) (hinb2_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg6) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v46) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S4000x16.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S16x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg19) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg20) S16x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg21) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v47) S4000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x128 : Shape := ⟨2, ![1600000, 128]⟩
abbrev S2x100000 : Shape := ⟨2, ![2, 100000]⟩
abbrev S20000x128 : Shape := ⟨2, ![20000, 128]⟩
abbrev S100000 : Shape := ⟨1, ![100000]⟩
abbrev S100000x16 : Shape := ⟨2, ![100000, 16]⟩
abbrev S20000x16 : Shape := ⟨2, ![20000, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S16x128 : Shape := ⟨2, ![16, 128]⟩
abbrev S1x1600000 : Shape := ⟨2, ![1, 1600000]⟩
abbrev S1600000 : Shape := ⟨1, ![1600000]⟩
abbrev S1700000 : Shape := ⟨1, ![1700000]⟩
abbrev S1x128 : Shape := ⟨2, ![1, 128]⟩
abbrev S_ : Shape := ⟨0, ![]⟩
abbrev S1700000x1 : Shape := ⟨2, ![1700000, 1]⟩
abbrev S1700000x128 : Shape := ⟨2, ![1700000, 128]⟩
abbrev S100000x1 : Shape := ⟨2, ![100000, 1]⟩
abbrev S1x100000 : Shape := ⟨2, ![1, 100000]⟩
abbrev S20000x256 : Shape := ⟨2, ![20000, 256]⟩
abbrev S1x256 : Shape := ⟨2, ![1, 256]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S1600000x128, .f32⟩
  | 3 => ⟨S2x100000, .i32⟩
  | 4 => ⟨S20000x128, .f32⟩
  | 5 => ⟨S100000, .i32⟩
  | 6 => ⟨S100000x16, .f32⟩
  | 7 => ⟨S20000x16, .f32⟩
  | 8 => ⟨S128x128, .f32⟩
  | 9 => ⟨S128, .f32⟩
  | 10 => ⟨S128x256, .f32⟩
  | 11 => ⟨S256, .f32⟩
  | 12 => ⟨S256x128, .f32⟩
  | 13 => ⟨S128, .f32⟩
  | 14 => ⟨S16x128, .f32⟩
  | 15 => ⟨S128, .f32⟩
  | 16 => ⟨S16x128, .f32⟩
  | 17 => ⟨S128, .f32⟩
  | 18 => ⟨S16x128, .f32⟩
  | 19 => ⟨S128, .f32⟩
  | 20 => ⟨S16x128, .f32⟩
  | 21 => ⟨S128, .f32⟩
  | 22 => ⟨S100000, .i32⟩
  | 23 => ⟨S1x1600000, .i32⟩
  | 24 => ⟨S1600000, .i32⟩
  | 25 => ⟨S1700000, .i32⟩
  | 26 => ⟨S1x1600000, .i32⟩
  | 27 => ⟨S1600000, .i32⟩
  | 28 => ⟨S1700000, .i32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x128, .f32⟩
  | 78 => ⟨S1700000x1, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S100000x128, .f32⟩
  | 95 => ⟨S_, .f32⟩
  | 96 => ⟨S20000x128, .f32⟩
  | 97 => ⟨S100000x1, .i32⟩
  | 98 => ⟨S20000x128, .f32⟩
  | 99 => ⟨S1x100000, .i32⟩
  | 100 => ⟨S100000, .i32⟩
  | 101 => ⟨S1x100000, .i32⟩
  | 102 => ⟨S100000, .i32⟩
  | 103 => ⟨S_, .i32⟩
  | 104 => ⟨S100000, .i32⟩
  | 105 => ⟨S100000, .i1⟩
  | 106 => ⟨S_, .i32⟩
  | 107 => ⟨S100000, .i32⟩
  | 108 => ⟨S100000, .i32⟩
  | 109 => ⟨S100000, .i32⟩
  | 110 => ⟨S100000x1, .i32⟩
  | 111 => ⟨S100000x128, .f32⟩
  | 112 => ⟨S_, .f32⟩
  | 113 => ⟨S20000x128, .f32⟩
  | 114 => ⟨S100000x1, .i32⟩
  | 115 => ⟨S20000x128, .f32⟩
  | 116 => ⟨S20000x256, .f32⟩
  | 117 => ⟨S1x256, .f32⟩
  | 118 => ⟨S20000x256, .f32⟩
  | 119 => ⟨S20000x256, .f32⟩
  | 120 => ⟨S_, .f32⟩
  | 121 => ⟨S20000x256, .f32⟩
  | 122 => ⟨S20000x256, .f32⟩
  | 123 => ⟨S20000x128, .f32⟩
  | 124 => ⟨S1x128, .f32⟩
  | 125 => ⟨S20000x128, .f32⟩
  | 126 => ⟨S20000x128, .f32⟩
  | 127 => ⟨S20000x128, .f32⟩
  | _ => ⟨S100000x128, .f32⟩

abbrev hbmTy0_1 (i : Nat) : BufTy := match i % 128 with
  | 0 => ⟨S1x128, .f32⟩
  | 1 => ⟨S20000x128, .f32⟩
  | 2 => ⟨S20000x128, .f32⟩
  | 3 => ⟨S20000x128, .f32⟩
  | 4 => ⟨S1x128, .f32⟩
  | 5 => ⟨S20000x128, .f32⟩
  | 6 => ⟨S20000x128, .f32⟩
  | 7 => ⟨S20000x128, .f32⟩
  | 8 => ⟨S20000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_cst_0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v20 : Ref sig .tc := ⟨.hbm, 49, rfl⟩
abbrev main_c : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_11 : Ref sig .tc := ⟨.hbm, 103, rfl⟩
abbrev main_v66 : Ref sig .tc := ⟨.hbm, 104, rfl⟩
abbrev main_v67 : Ref sig .tc := ⟨.hbm, 105, rfl⟩
abbrev main_c_12 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_13 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call1_cst : Ref sig .tc := ⟨.hbm, 120, rfl⟩
abbrev main_call1_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S20000x128 : S_.BroadcastsInDim S20000x128 (![] : Fin 0 → Fin S20000x128.rank)
  bcast_S100000_S100000x1_0 : S100000.BroadcastsInDim S100000x1 (![0] : Fin 1 → Fin S100000x1.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S1x128_S20000x128_0_1 : S1x128.BroadcastsInDim S20000x128 (![0, 1] : Fin 2 → Fin S20000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x16_S16x128_S100000x128_1_0_0_1_n_n_wf : DotDims.WF S100000x16 S16x128 S100000x128 [1] [0] [0] [1] [] []
  scatter_S20000x128_S100000x1_S100000x128_1_0_0_1_wf : ScatterDims.WF S20000x128 S100000x1 S100000x128 [1] [0] [0] 1
  gather_S20000x128_S100000x1_S100000x128_1_0_n_n_0_1_1128_wf : GatherDims.WF S20000x128 S100000x1 S100000x128 [1] [0] [] [0] [] 1 ![1, 128]
  dot_S20000x128_S128x256_S20000x256_1_0_0_1_n_n_wf : DotDims.WF S20000x128 S128x256 S20000x256 [1] [0] [0] [1] [] []
  dot_S20000x256_S256x128_S20000x128_1_0_0_1_n_n_wf : DotDims.WF S20000x256 S256x128 S20000x128 [1] [0] [0] [1] [] []
  dot_S20000x16_S16x128_S20000x128_1_0_0_1_n_n_wf : DotDims.WF S20000x16 S16x128 S20000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x16_S16x128_S20000x128_1_0_0_1_n_n : DotDims S20000x16 S16x128 S20000x128 where
  lhsContracting := [1]
  rhsContracting := [0]
  lhsNonContracting := [0]
  rhsNonContracting := [1]
  lhsBatch := []
  rhsBatch := []
  wf := dot_S20000x16_S16x128_S20000x128_1_0_0_1_n_n_wf

class Facts : Prop extends Facts₀ where

variable [Facts]
-- ==== Proof.KernelRun.lean ====
/-
  The idealized kernel program's run with its two result arrays named.

  Every weakly fair execution of the program terminates without a fault, and in every final state the two result buffers
  hold what the fold through the program's segments leaves there (host stretch by host stretch, region by region: the
  valuation at the last boundary), while the argument arrays are as launched. The launch is the same as the one that gives
  the frame; only the final reading differs: besides the arguments it reads the two result buffers.
-/
import proofs.«132271_j58033598103709_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: both result buffers end at the last boundary's valuation, the arguments as launched. -/
theorem run_results : θ_run defs (onTc (τ := τ) (main (F := F))) ⟨m, fun _ => 0, ρ⟩ (fun r => ∀ c : Dev nD,
      r.2.mem ((c.tc : Thread nD τ).loc main_v29) = W8 m ρ c (Proc.devRef .tc main_v29)
      ∧ r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v29 (by decide)),
       h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c)⟩)

end Cert.KernelIdeal.Gen

end
-- ==== Proof.LayerSpec.lean ====
/-
  What the three dense stages of the layer compute, entry by entry, on the extended reals.

  A dense layer is a matrix product plus a bias row: entry `(p, q)` is `Σ_k a[p, k] · w[k, q] + b[q]`. The three stages are
  built from it:
    * the atom embedding with its rows scaled by a column `d`: `(a·w + b)[p, q] · d[p]`;
    * the conditioning of a scaled aggregate: `γ[p, q] · (agg[p, q] · d[p]) + β[p, q]`, where `γ` and `β` are dense layers of the
      conditioning rows;
    * the fragment network: `γ[p, q] · h[p, q] + β[p, q]` with `h` a dense layer of the positive part of a dense layer.
  Every function is stated over literal rank-2 and rank-1 index types with generic extents, so that the same definition
  reads a block of rows and the whole array.
-/
import Idealize.ShloMosaic.PureOps.Ideal.Laws
import Idealize.ShloMosaic.Lib.ValueIdx

noncomputable section

open scoped BigOperators

namespace Cert.Layer

open Idealize.ShloMosaic Idealize.ShloMosaic.ValueIdx

/-- A dense layer at one entry: row `i 0` of `a` against column `i 1` of `w`, plus the bias at that column. -/
def dense {M K N : Nat} (a : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, a (ix2 (i 0) k) * w (ix2 k (i 1))) + b (ix1 (i 1))

/-- A dense layer whose row `p` is multiplied by the entry `d[p]` of a column. -/
def denseScaled {M K N : Nat} (a : (⟨2, ![M, K]⟩ : Shape).Idx → EReal) (w : (⟨2, ![K, N]⟩ : Shape).Idx → EReal)
    (b : (⟨1, ![N]⟩ : Shape).Idx → EReal) (d : (⟨2, ![M, 1]⟩ : Shape).Idx → EReal) : (⟨2, ![M, N]⟩ : Shape).Idx → EReal :=
  fun i => dense a w b i * d (ix2 (i 0) ⟨0, Nat.one_pos⟩)

/-- The conditioning of an aggregate whose row `p` is first multiplied by `d[p]`: `γ · (agg · d) + β`, with `γ` and `β` dense
    layers of the conditioning rows. -/
def filmScaled {M K N : Nat} (cond : (⟨2, ![M, K]⟩ : Shape).Idx → EReal) (wg : (⟨2, ![K, N]⟩ : Shape).Idx → EReal)
    (bg : (⟨1, ![N]⟩ : Shape).Idx → EReal) (wb : (⟨2, ![K, N]⟩ : Shape).Idx → EReal) (bb : (⟨1, ![N]⟩ : Shape).Idx → EReal)
    (agg : (⟨2, ![M, N]⟩ : Shape).Idx → EReal) (d : (⟨2, ![M, 1]⟩ : Shape).Idx → EReal) : (⟨2, ![M, N]⟩ : Shape).Idx → EReal :=
  fun i => dense cond wg bg i * (agg i * d (ix2 (i 0) ⟨0, Nat.one_pos⟩)) + dense cond wb bb i

/-- The conditioning of an array `y` itself: `γ · y + β`. -/
def film {M K N : Nat} (cond : (⟨2, ![M, K]⟩ : Shape).Idx → EReal) (wg : (⟨2, ![K, N]⟩ : Shape).Idx → EReal)
    (bg : (⟨1, ![N]⟩ : Shape).Idx → EReal) (wb : (⟨2, ![K, N]⟩ : Shape).Idx → EReal) (bb : (⟨1, ![N]⟩ : Shape).Idx → EReal)
    (y : (⟨2, ![M, N]⟩ : Shape).Idx → EReal) : (⟨2, ![M, N]⟩ : Shape).Idx → EReal :=
  fun i => dense cond wg bg i * y i + dense cond wb bb i

/-- The two-layer network on the rows of `x`: a dense layer of the positive part of a dense layer. -/
def mlp {M D H N : Nat} (x : (⟨2, ![M, D]⟩ : Shape).Idx → EReal) (w1 : (⟨2, ![D, H]⟩ : Shape).Idx → EReal)
    (b1 : (⟨1, ![H]⟩ : Shape).Idx → EReal) (w2 : (⟨2, ![H, N]⟩ : Shape).Idx → EReal) (b2 : (⟨1, ![N]⟩ : Shape).Idx → EReal) :
    (⟨2, ![M, N]⟩ : Shape).Idx → EReal :=
  dense (fun j => max (dense x w1 b1 j) 0) w2 b2

/-- The conditioning with the scale folded in is the conditioning of the scaled aggregate. -/
theorem filmScaled_eq_film {M K N : Nat} (cond : (⟨2, ![M, K]⟩ : Shape).Idx → EReal) (wg : (⟨2, ![K, N]⟩ : Shape).Idx → EReal)
    (bg : (⟨1, ![N]⟩ : Shape).Idx → EReal) (wb : (⟨2, ![K, N]⟩ : Shape).Idx → EReal) (bb : (⟨1, ![N]⟩ : Shape).Idx → EReal)
    (agg : (⟨2, ![M, N]⟩ : Shape).Idx → EReal) (d : (⟨2, ![M, 1]⟩ : Shape).Idx → EReal) :
    filmScaled cond wg bg wb bb agg d = film cond wg bg wb bb (fun i => agg i * d (ix2 (i 0) ⟨0, Nat.one_pos⟩)) := rfl

/-- A dense layer of a block of rows is the block of the dense layer: if the block's row `p` is row `r p` of the whole
    array, entry `(p, q)` of the one is entry `(r p, q)` of the other. -/
theorem dense_rows {M M' K N : Nat} (a : (⟨2, ![M, K]⟩ : Shape).Idx → EReal) (a' : (⟨2, ![M', K]⟩ : Shape).Idx → EReal)
    (w : (⟨2, ![K, N]⟩ : Shape).Idx → EReal) (b : (⟨1, ![N]⟩ : Shape).Idx → EReal) (p : Fin M') (r : Fin M) (q : Fin N)
    (h : ∀ k : Fin K, a' (ix2 p k) = a (ix2 r k)) :
    dense a' w b (ix2 p q) = dense a w b (ix2 r q) := by
  unfold dense
  refine congrArg (· + b (ix1 q)) (Finset.sum_congr rfl fun k _ => ?_)
  show a' (ix2 p k) * w (ix2 k q) = a (ix2 r k) * w (ix2 k q)
  rw [h k]

end Cert.Layer

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.BodyValues.lean ====
/-
  The value each of the three kernel bodies stores, read at one entry at the ideal values (the extended reals), against
  the entrywise description of the layer's dense stages: a matrix product is a finite sum of products, a bias row and a
  scale column are read at the entry's column and row, and a narrowing of the number format does nothing to an extended
  real.
-/
import proofs.«132271_j58033598103709_2_alg».proof.Proof.Gen.KernelIdeal.Skeleton
import proofs.«132271_j58033598103709_2_alg».proof.Proof.LayerSpec
import proofs.«132271_j58033598103709_2_alg».proof.Proof.LibMatmulEntry
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-! ## A column broadcast over many columns, and a bias row read at an entry -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-- A `[b]` array cast to `[1, b]` and broadcast to `[a, b]` reads, at `(p, c)`, the array at `c`. -/
theorem biasRow_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- An `[a, 1]` array cast to its own shape and broadcast to `[a, b]` reads, at `(p, c)`, the array at `(p, 0)`. -/
theorem scaleCol_apply {α : Type} {a b : ℕ} (v : (⟨2, ![a, 1]⟩ : Shape).Idx → α)
    (hc : (⟨2, ![a, 1]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix2 p ⟨0, Nat.one_pos⟩) := by
  rw [shapeCast_self]
  exact broadcastTo_a1_ab_apply v hb p c

/-! ## The atom embedding -/

/-- The embedding body's stored value at `(p, q)` is the dense layer's entry there times the scale column's entry at
    row `p`. -/
theorem embed_body_at (v0 : Vec Ideal S5000x128 .f32) (v2 : Vec Ideal S128x128 .f32) (v5 : Vec Ideal S128 .f32)
    (v9 : Vec Ideal S5000x1 .f32) (p : Fin 5000) (q : Fin 128) :
    k0_pay1 (F := Ideal) v0 v2 v5 v9 (ix2 p q) = Cert.Layer.denseScaled v0 v2 v5 v9 (ix2 p q) := by
  unfold k0_pay1
  show mulf (F := Ideal) (addf (F := Ideal) (FloatOps.matmul (F := Ideal) dot_S5000x128_S128x128_S5000x128_1_0_0_1_n_n none
      (truncf .bf16 v0 bitsLt_bf16_f32) (truncf .bf16 v2 bitsLt_bf16_f32) (constant (F := Ideal) S5000x128 .f32 0x00000000#32))
    (broadcastTo S5000x128 (shapeCast S1x128 v5 shapeCasts_S128_S1x128) broadcasts_S1x128_S5000x128))
    (broadcastTo S5000x128 (shapeCast S5000x1 v9 shapeCasts_S5000x1_S5000x1) broadcasts_S5000x1_S5000x128) (ix2 p q) = _
  rw [mulf_apply, addf_apply,
    Ideal.matmul_rows_cols dot_S5000x128_S128x128_S5000x128_1_0_0_1_n_n rfl rfl rfl rfl rfl rfl none _ _ p q,
    biasRow_apply v5 shapeCasts_S128_S1x128 broadcasts_S1x128_S5000x128 p q,
    scaleCol_apply v9 shapeCasts_S5000x1_S5000x1 broadcasts_S5000x1_S5000x128 p q]
  rfl

/-! ## The conditioning of the scaled aggregate -/

/-- The conditioning body's stored value at `(p, q)` is `γ · (agg · d) + β` there, `γ` and `β` the dense layers of the
    conditioning rows with the first and the second weight matrix and bias. -/
theorem film_body_at (v0 : Vec Ideal S5000x16 .f32) (v2 v4 : Vec Ideal S16x128 .f32) (v7 v12 : Vec Ideal S128 .f32)
    (v16 : Vec Ideal S5000x128 .f32) (v18 : Vec Ideal S5000x1 .f32) (p : Fin 5000) (q : Fin 128) :
    k1_pay1 (F := Ideal) v0 v2 v4 v7 v12 v16 v18 (ix2 p q) = Cert.Layer.filmScaled v0 v2 v7 v4 v12 v16 v18 (ix2 p q) := by
  unfold k1_pay1
  show addf (F := Ideal)
    (mulf (F := Ideal)
      (addf (F := Ideal) (FloatOps.matmul (F := Ideal) dot_S5000x16_S16x128_S5000x128_1_0_0_1_n_n none
          (truncf .bf16 v0 bitsLt_bf16_f32) (truncf .bf16 v2 bitsLt_bf16_f32) (constant (F := Ideal) S5000x128 .f32 0x00000000#32))
        (broadcastTo S5000x128 (shapeCast S1x128 v7 shapeCasts_S128_S1x128) broadcasts_S1x128_S5000x128))
      (mulf (F := Ideal) (shapeCast S5000x128 v16 shapeCasts_S5000x128_S5000x128)
        (broadcastTo S5000x128 (shapeCast S5000x1 v18 shapeCasts_S5000x1_S5000x1) broadcasts_S5000x1_S5000x128)))
    (addf (F := Ideal) (FloatOps.matmul (F := Ideal) dot_S5000x16_S16x128_S5000x128_1_0_0_1_n_n none
        (truncf .bf16 v0 bitsLt_bf16_f32) (truncf .bf16 v4 bitsLt_bf16_f32) (constant (F := Ideal) S5000x128 .f32 0x00000000#32))
      (broadcastTo S5000x128 (shapeCast S1x128 v12 shapeCasts_S128_S1x128) broadcasts_S1x128_S5000x128)) (ix2 p q) = _
  simp only [addf_apply, mulf_apply]
  rw [Ideal.matmul_rows_cols dot_S5000x16_S16x128_S5000x128_1_0_0_1_n_n rfl rfl rfl rfl rfl rfl none
      (truncf .bf16 v0 bitsLt_bf16_f32) (truncf .bf16 v2 bitsLt_bf16_f32) p q,
    Ideal.matmul_rows_cols dot_S5000x16_S16x128_S5000x128_1_0_0_1_n_n rfl rfl rfl rfl rfl rfl none
      (truncf .bf16 v0 bitsLt_bf16_f32) (truncf .bf16 v4 bitsLt_bf16_f32) p q,
    biasRow_apply v7 shapeCasts_S128_S1x128 broadcasts_S1x128_S5000x128 p q,
    biasRow_apply v12 shapeCasts_S128_S1x128 broadcasts_S1x128_S5000x128 p q,
    scaleCol_apply v18 shapeCasts_S5000x1_S5000x1 broadcasts_S5000x1_S5000x128 p q,
    shapeCast_self v16 shapeCasts_S5000x128_S5000x128]
  rfl

/-! ## The fragment network and its conditioning -/

/-- The hidden layer as the body computes it: the positive part of the first dense layer, the zero being the splat of
    the zero word. -/
abbrev mlpHidden (v0 : Vec Ideal S4000x128 .f32) (v3 : Vec Ideal S128x256 .f32) (v6 : Vec Ideal S256 .f32) :
    FVec Ideal S4000x256 .f32 :=
  maximumf (F := Ideal)
    (addf (F := Ideal) (FloatOps.matmul (F := Ideal) dot_S4000x128_S128x256_S4000x256_1_0_0_1_n_n none
        (truncf .bf16 (shapeCast S4000x128 v0 shapeCasts_S4000x128_S4000x128) bitsLt_bf16_f32)
        (truncf .bf16 v3 bitsLt_bf16_f32) (constant (F := Ideal) S4000x256 .f32 0x00000000#32))
      (broadcastTo S4000x256 (shapeCast S1x256 v6 shapeCasts_S256_S1x256) broadcasts_S1x256_S4000x256))
    (broadcast S4000x256 (Scalar.ofBits (F := Ideal) .f32 0x00000000#32))

/-- The hidden layer at `(p, k)` is the positive part of the first dense layer's entry there. -/
theorem mlpHidden_at (v0 : Vec Ideal S4000x128 .f32) (v3 : Vec Ideal S128x256 .f32) (v6 : Vec Ideal S256 .f32)
    (p : Fin 4000) (k : Fin 256) :
    mlpHidden v0 v3 v6 (ix2 p k) = max (Cert.Layer.dense v0 v3 v6 (ix2 p k)) 0 := by
  unfold mlpHidden
  rw [shapeCast_self v0 shapeCasts_S4000x128_S4000x128, maximumf_apply, addf_apply, broadcast_apply,
    Ideal.matmul_rows_cols dot_S4000x128_S128x256_S4000x256_1_0_0_1_n_n rfl rfl rfl rfl rfl rfl none
      (truncf .bf16 v0 bitsLt_bf16_f32) (truncf .bf16 v3 bitsLt_bf16_f32) p k,
    biasRow_apply v6 shapeCasts_S256_S1x256 broadcasts_S1x256_S4000x256 p k]
  show max _ (Ideal.ofBits .f32 0x00000000#32) = _
  rw [Ideal.ofBits_zero_f32]
  rfl

/-- The fragment body's value at `(p, q)` is `γ · h + β` there: `h` the dense layer of the positive part of a dense layer
    of the fragment rows, `γ` and `β` the dense layers of the conditioning rows. -/
theorem mlp_body_at (v0 : Vec Ideal S4000x128 .f32) (v3 : Vec Ideal S128x256 .f32) (v6 : Vec Ideal S256 .f32)
    (v13 : Vec Ideal S256x128 .f32) (v16 : Vec Ideal S128 .f32) (v20 : Vec Ideal S4000x16 .f32)
    (v22 v24 : Vec Ideal S16x128 .f32) (v27 v32 : Vec Ideal S128 .f32) (p : Fin 4000) (q : Fin 128) :
    k2_pay1 (F := Ideal) v0 v3 v6 v13 v16 v20 v22 v24 v27 v32 (ix2 p q)
      = Cert.Layer.film v20 v22 v27 v24 v32 (Cert.Layer.mlp v0 v3 v6 v13 v16) (ix2 p q) := by
  unfold k2_pay1
  show addf (F := Ideal)
    (mulf (F := Ideal)
      (addf (F := Ideal) (FloatOps.matmul (F := Ideal) dot_S4000x16_S16x128_S4000x128_1_0_0_1_n_n none
          (truncf .bf16 v20 bitsLt_bf16_f32) (truncf .bf16 v22 bitsLt_bf16_f32) (constant (F := Ideal) S4000x128 .f32 0x00000000#32))
        (broadcastTo S4000x128 (shapeCast S1x128 v27 shapeCasts_S128_S1x128) broadcasts_S1x128_S4000x128))
      (addf (F := Ideal) (FloatOps.matmul (F := Ideal) dot_S4000x256_S256x128_S4000x128_1_0_0_1_n_n none
          (truncf .bf16 (mlpHidden v0 v3 v6) bitsLt_bf16_f32) (truncf .bf16 v13 bitsLt_bf16_f32)
          (constant (F := Ideal) S4000x128 .f32 0x00000000#32))
        (broadcastTo S4000x128 (shapeCast S1x128 v16 shapeCasts_S128_S1x128) broadcasts_S1x128_S4000x128)))
    (addf (F := Ideal) (FloatOps.matmul (F := Ideal) dot_S4000x16_S16x128_S4000x128_1_0_0_1_n_n none
        (truncf .bf16 v20 bitsLt_bf16_f32) (truncf .bf16 v24 bitsLt_bf16_f32) (constant (F := Ideal) S4000x128 .f32 0x00000000#32))
      (broadcastTo S4000x128 (shapeCast S1x128 v32 shapeCasts_S128_S1x128) broadcasts_S1x128_S4000x128)) (ix2 p q) = _
  simp only [addf_apply, mulf_apply]
  rw [Ideal.matmul_rows_cols dot_S4000x16_S16x128_S4000x128_1_0_0_1_n_n rfl rfl rfl rfl rfl rfl none
      (truncf .bf16 v20 bitsLt_bf16_f32) (truncf .bf16 v22 bitsLt_bf16_f32) p q,
    Ideal.matmul_rows_cols dot_S4000x16_S16x128_S4000x128_1_0_0_1_n_n rfl rfl rfl rfl rfl rfl none
      (truncf .bf16 v20 bitsLt_bf16_f32) (truncf .bf16 v24 bitsLt_bf16_f32) p q,
    Ideal.matmul_rows_cols dot_S4000x256_S256x128_S4000x128_1_0_0_1_n_n rfl rfl rfl rfl rfl rfl none
      (truncf .bf16 (mlpHidden v0 v3 v6) bitsLt_bf16_f32) (truncf .bf16 v13 bitsLt_bf16_f32) p q,
    biasRow_apply v27 shapeCasts_S128_S1x128 broadcasts_S1x128_S4000x128 p q,
    biasRow_apply v16 shapeCasts_S128_S1x128 broadcasts_S1x128_S4000x128 p q,
    biasRow_apply v32 shapeCasts_S128_S1x128 broadcasts_S1x128_S4000x128 p q]
  have hsum : (∑ k : Fin 256, (truncf .bf16 (mlpHidden v0 v3 v6) bitsLt_bf16_f32 : FVec Ideal S4000x256 .bf16) (ix2 p k)
        * (truncf .bf16 v13 bitsLt_bf16_f32 : FVec Ideal S256x128 .bf16) (ix2 k q))
      = ∑ k : Fin 256, max (Cert.Layer.dense v0 v3 v6 (ix2 p k)) 0 * v13 (ix2 k q) :=
    Finset.sum_congr rfl fun k _ => congrArg (· * v13 (ix2 k q)) (mlpHidden_at v0 v3 v6 p k)
  rw [hsum]
  rfl

end Cert.KernelIdeal.BodyValues

end
-- ==== Proof.EmbedArray.lean ====
/-
  The first region's output array as one function of the arrays it reads.

  The grid has 20 points; point `t` reads rows `[5000·t, 5000·t + 5000)` of the atom features and of the scale column, the
  whole weight matrix and the whole bias, and writes back rows `[5000·t, 5000·t + 5000)` of the output. The body's stored
  value at entry `(p, q)` of the block is the scaled dense layer of the block's rows, so what point `t` writes back is the
  block of the scaled dense layer of the whole arrays; the 20 blocks tile the output's 100000 rows (row `r` lies in
  block `r / 5000`), so the output array ends as that function everywhere.
-/
import proofs.«132271_j58033598103709_2_alg».proof.Proof.Gen.KernelIdeal.Frame
import proofs.«132271_j58033598103709_2_alg».proof.Proof.BodyValues
import proofs.«132271_j58033598103709_2_alg».proof.Proof.LayerSpec
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- Two dense layers agree at an entry when their operands agree on the row, the column and the bias entry it reads. -/
theorem dense_congr {M M' K N : Nat} (a : (⟨2, ![M, K]⟩ : Shape).Idx → EReal) (a' : (⟨2, ![M', K]⟩ : Shape).Idx → EReal)
    (w w' : (⟨2, ![K, N]⟩ : Shape).Idx → EReal) (b b' : (⟨1, ![N]⟩ : Shape).Idx → EReal) (p : Fin M') (r : Fin M) (q : Fin N)
    (ha : ∀ k : Fin K, a' (ix2 p k) = a (ix2 r k)) (hw : ∀ k : Fin K, w' (ix2 k q) = w (ix2 k q)) (hb : b' (ix1 q) = b (ix1 q)) :
    Cert.Layer.dense a' w' b' (ix2 p q) = Cert.Layer.dense a w b (ix2 r q) := by
  unfold Cert.Layer.dense
  show (∑ k : Fin K, a' (ix2 p k) * w' (ix2 k q)) + b' (ix1 q) = (∑ k : Fin K, a (ix2 r k) * w (ix2 k q)) + b (ix1 q)
  rw [hb]
  refine congrArg (· + b (ix1 q)) (Finset.sum_congr rfl fun k _ => ?_)
  rw [ha k, hw k]

/-- Where each window's block sits at point `t` (decided over the 20 points): the row blocks at block row `t`, the
    weights and the bias at the origin. -/
theorem embed_index : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The body's stored value at entry `(p, q)` of a block whose rows are rows of the whole arrays: the scaled dense layer
    of the whole arrays at the corresponding entry. -/
theorem embed_point (x0 : Vec Ideal S5000x128 .f32) (x1 : Vec Ideal S128x128 .f32) (x2 : Vec Ideal S128 .f32) (x3 : Vec Ideal S5000x1 .f32)
    (A0 : S100000x128.Idx → EReal) (A1 : S128x128.Idx → EReal) (A2 : S128.Idx → EReal) (A3 : S100000x1.Idx → EReal)
    (p : Fin 5000) (q : Fin 128) (r : Fin 100000)
    (h0 : ∀ k : Fin 128, x0 (ix2 p k) = A0 (ix2 r k)) (h1 : ∀ k : Fin 128, x1 (ix2 k q) = A1 (ix2 k q)) (h2 : x2 (ix1 q) = A2 (ix1 q))
    (h3 : x3 (ix2 p ⟨0, Nat.one_pos⟩) = A3 (ix2 r ⟨0, Nat.one_pos⟩)) :
    k0_pay1 (F := Ideal) x0 x1 x2 x3 (ix2 p q) = Cert.Layer.denseScaled A0 A1 A2 A3 (ix2 r q) := by
  rw [Cert.KernelIdeal.BodyValues.embed_body_at]
  unfold Cert.Layer.denseScaled
  show Cert.Layer.dense x0 x1 x2 (ix2 p q) * x3 (ix2 p ⟨0, Nat.one_pos⟩) = Cert.Layer.dense A0 A1 A2 (ix2 r q) * A3 (ix2 r ⟨0, Nat.one_pos⟩)
  rw [h3, dense_congr A0 x0 A1 x1 A2 x2 p r q h0 h1 h2]

/-- What point `t` writes back is block `t` of the scaled dense layer of the arrays the region finds. -/
theorem embed_flushed (c : Dev nD) (t : Fin cfg0.N) :
    (dat0 V c).flushed 4 t = ((cfg0.win 4).blk t).view.read (Elt Ideal)
      (Cert.Layer.denseScaled (V c main_arg0) (V c main_arg8) (V c main_arg9) (V c main_v17)) := by
  show (cfg0.win 4).cut (grid0.coords t) ((dat0 V c).after 4 t) = _
  rw [after0_4]
  unfold out0_4
  rw [View.canon_unit_zero origin2]
  simp only [View.ld_unit_zero (S := S5000x128) origin2, View.ld_unit_zero (S := S128x128) origin2, View.ld_unit_zero (S := S128) origin1, View.ld_unit_zero (S := S5000x1) origin2]
  obtain ⟨e0, e1, e2, e3, e4, e5, e6, e7, e8⟩ := embed_index t
  have ht : t.val < 20 := t.isLt
  funext y
  have hy0 : (y 0).val < 5000 := (y 0).isLt
  have hy1 : (y 1).val < 128 := (y 1).isLt
  have hy : y = ix2 (⟨(y 0).val, hy0⟩ : Fin 5000) (⟨(y 1).val, hy1⟩ : Fin 128) :=
    funext fun a => Fin.ext (by match a with | ⟨0, _⟩ => rfl | ⟨1, _⟩ => rfl)
  have hE : ((cfg0.win 4).blk t).view.emb y = ix2 (⟨t.val * 5000 + (y 0).val, by omega⟩ : Fin 100000) (⟨(y 1).val, hy1⟩ : Fin 128) := by
    funext a; apply Fin.ext
    match a with
    | ⟨0, _⟩ => show win0_4.index t (0 : Fin 2) * 5000 + 1 * (y 0).val = t.val * 5000 + (y 0).val; omega
    | ⟨1, _⟩ => show win0_4.index t (1 : Fin 2) * 128 + 1 * (y 1).val = (y 1).val; omega
  have h0 : ∀ k : Fin 128, iblk0 V c 0 t (ix2 (⟨(y 0).val, hy0⟩ : Fin 5000) k) = V c main_arg0 (ix2 (⟨t.val * 5000 + (y 0).val, by omega⟩ : Fin 100000) k) := by
    intro k
    show V c main_arg0 (((cfg0.win 0).blk t).view.emb (ix2 (⟨(y 0).val, hy0⟩ : Fin 5000) k)) = _
    refine congrArg (V c main_arg0) (funext fun a => Fin.ext ?_)
    match a with
    | ⟨0, _⟩ => show win0_0.index t (0 : Fin 2) * 5000 + 1 * (y 0).val = t.val * 5000 + (y 0).val; omega
    | ⟨1, _⟩ => show win0_0.index t (1 : Fin 2) * 128 + 1 * k.val = k.val; omega
  have h1 : ∀ k : Fin 128, iblk0 V c 1 t (ix2 k (⟨(y 1).val, hy1⟩ : Fin 128)) = V c main_arg8 (ix2 k (⟨(y 1).val, hy1⟩ : Fin 128)) := by
    intro k
    show V c main_arg8 (((cfg0.win 1).blk t).view.emb (ix2 k (⟨(y 1).val, hy1⟩ : Fin 128))) = _
    refine congrArg (V c main_arg8) (funext fun a => Fin.ext ?_)
    match a with
    | ⟨0, _⟩ => show win0_1.index t (0 : Fin 2) * 128 + 1 * k.val = k.val; omega
    | ⟨1, _⟩ => show win0_1.index t (1 : Fin 2) * 128 + 1 * (y 1).val = (y 1).val; omega
  have h2 : iblk0 V c 2 t (ix1 (⟨(y 1).val, hy1⟩ : Fin 128)) = V c main_arg9 (ix1 (⟨(y 1).val, hy1⟩ : Fin 128)) := by
    show V c main_arg9 (((cfg0.win 2).blk t).view.emb (ix1 (⟨(y 1).val, hy1⟩ : Fin 128))) = _
    refine congrArg (V c main_arg9) (funext fun a => Fin.ext ?_)
    match a with
    | ⟨0, _⟩ => show win0_2.index t (0 : Fin 1) * 128 + 1 * (y 1).val = (y 1).val; omega
  have h3 : iblk0 V c 3 t (ix2 (⟨(y 0).val, hy0⟩ : Fin 5000) (⟨0, Nat.one_pos⟩ : Fin 1)) = V c main_v17 (ix2 (⟨t.val * 5000 + (y 0).val, by omega⟩ : Fin 100000) (⟨0, Nat.one_pos⟩ : Fin 1)) := by
    show V c main_v17 (((cfg0.win 3).blk t).view.emb (ix2 (⟨(y 0).val, hy0⟩ : Fin 5000) (⟨0, Nat.one_pos⟩ : Fin 1))) = _
    refine congrArg (V c main_v17) (funext fun a => Fin.ext ?_)
    match a with
    | ⟨0, _⟩ => show win0_3.index t (0 : Fin 2) * 5000 + 1 * (y 0).val = t.val * 5000 + (y 0).val; omega
    | ⟨1, _⟩ => show win0_3.index t (1 : Fin 2) * 1 + 1 * 0 = 0; omega
  show k0_pay1 (F := Ideal) (iblk0 V c 0 t) (iblk0 V c 1 t) (iblk0 V c 2 t) (iblk0 V c 3 t) y
    = Cert.Layer.denseScaled (V c main_arg0) (V c main_arg8) (V c main_arg9) (V c main_v17) (((cfg0.win 4).blk t).view.emb y)
  rw [hE]
  exact (congrArg (k0_pay1 (F := Ideal) (iblk0 V c 0 t) (iblk0 V c 1 t) (iblk0 V c 2 t) (iblk0 V c 3 t)) hy).trans
    (embed_point (iblk0 V c 0 t) (iblk0 V c 1 t) (iblk0 V c 2 t) (iblk0 V c 3 t) (V c main_arg0) (V c main_arg8) (V c main_arg9) (V c main_v17)
      ⟨(y 0).val, hy0⟩ ⟨(y 1).val, hy1⟩ ⟨t.val * 5000 + (y 0).val, by omega⟩ h0 h1 h2 h3)

/-- An index of the output array lies in point `t`'s block iff its row is in `[5000·t, 5000·t + 5000)`. -/
theorem embed_mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v18).slice (win0_4.rect t)).set ↔ _
  rw [View.set_slice_whole, Rect.mem_set_unit]
  exact Iff.rfl

/-- Every block row is some point's. -/
theorem embed_onto : ∀ q0 : Fin 20, ∃ t : Fin cfg0.N, win0_4.index t = ![q0.val, 0] :=
  (by decide +kernel : ∀ q0 : Fin 20, ∃ t : Fin grid0.N, win0_4.index t = ![q0.val, 0])

/-- The blocks tile the output array. -/
theorem embed_cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := embed_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [embed_mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE ARRAY after the region: the scaled dense layer of the arrays the region finds. -/
theorem embed_final (c : Dev nD) :
    (dat0 V c).arrAt 4 cfg0.N = Cert.Layer.denseScaled (V c main_arg0) (V c main_arg8) (V c main_arg9) (V c main_v17) :=
  (dat0 V c).arrAt_eq_of_cover 4 _ (fun t _ => embed_flushed V c t) embed_cover

end Cert.KernelIdeal.Arrays

end
-- ==== Proof.FilmArray.lean ====
/-
  The second region's output array as one function of the arrays it reads.

  The grid has 20 points; point `t` reads rows `[5000·t, 5000·t + 5000)` of the conditioning rows, of the aggregate and of the
  scale column, the two whole weight matrices and the two whole biases, and writes back the same rows of the output. The
  body's stored value at entry `(p, q)` of the block is `γ · (agg · d) + β` of the block's rows, so point `t` writes back the
  block of that function of the whole arrays, and the 20 blocks tile the output's 100000 rows.
-/
import proofs.«132271_j58033598103709_2_alg».proof.Proof.Gen.KernelIdeal.Frame
import proofs.«132271_j58033598103709_2_alg».proof.Proof.BodyValues
import proofs.«132271_j58033598103709_2_alg».proof.Proof.LayerSpec
import proofs.«132271_j58033598103709_2_alg».proof.Proof.EmbedArray
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at point `t` (decided over the 20 points). -/
theorem film_index : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The body's stored value at entry `(p, q)` of a block whose rows are rows of the whole arrays. -/
theorem film_point (x0 : Vec Ideal S5000x16 .f32) (x1 x3 : Vec Ideal S16x128 .f32) (x2 x4 : Vec Ideal S128 .f32)
    (x5 : Vec Ideal S5000x128 .f32) (x6 : Vec Ideal S5000x1 .f32)
    (A0 : S100000x16.Idx → EReal) (A1 A3 : S16x128.Idx → EReal) (A2 A4 : S128.Idx → EReal) (A5 : S100000x128.Idx → EReal)
    (A6 : S100000x1.Idx → EReal) (p : Fin 5000) (q : Fin 128) (r : Fin 100000)
    (h0 : ∀ k : Fin 16, x0 (ix2 p k) = A0 (ix2 r k)) (h1 : ∀ z, x1 z = A1 z) (h2 : ∀ z, x2 z = A2 z) (h3 : ∀ z, x3 z = A3 z)
    (h4 : ∀ z, x4 z = A4 z) (h5 : x5 (ix2 p q) = A5 (ix2 r q)) (h6 : x6 (ix2 p ⟨0, Nat.one_pos⟩) = A6 (ix2 r ⟨0, Nat.one_pos⟩)) :
    k1_pay1 (F := Ideal) x0 x1 x3 x2 x4 x5 x6 (ix2 p q) = Cert.Layer.filmScaled A0 A1 A2 A3 A4 A5 A6 (ix2 r q) := by
  rw [Cert.KernelIdeal.BodyValues.film_body_at]
  unfold Cert.Layer.filmScaled
  show Cert.Layer.dense x0 x1 x2 (ix2 p q) * (x5 (ix2 p q) * x6 (ix2 p ⟨0, Nat.one_pos⟩)) + Cert.Layer.dense x0 x3 x4 (ix2 p q)
    = Cert.Layer.dense A0 A1 A2 (ix2 r q) * (A5 (ix2 r q) * A6 (ix2 r ⟨0, Nat.one_pos⟩)) + Cert.Layer.dense A0 A3 A4 (ix2 r q)
  rw [h5, h6, dense_congr A0 x0 A1 x1 A2 x2 p r q h0 (fun k => h1 _) (h2 _), dense_congr A0 x0 A3 x3 A4 x4 p r q h0 (fun k => h3 _) (h4 _)]

/-- What point `t` writes back is block `t` of the conditioned scaled aggregate of the arrays the region finds. -/
theorem film_flushed (c : Dev nD) (t : Fin cfg1.N) :
    (dat1 V c).flushed 7 t = ((cfg1.win 7).blk t).view.read (Elt Ideal)
      (Cert.Layer.filmScaled (V c main_arg6) (V c main_arg14) (V c main_arg15) (V c main_arg16) (V c main_arg17) (V c main_v28) (V c main_v17)) := by
  show (cfg1.win 7).cut (grid1.coords t) ((dat1 V c).after 7 t) = _
  rw [after1_7]
  unfold out1_7
  rw [View.canon_unit_zero origin2]
  simp only [View.ld_unit_zero (S := S5000x16) origin2, View.ld_unit_zero (S := S16x128) origin2, View.ld_unit_zero (S := S128) origin1, View.ld_unit_zero (S := S5000x128) origin2, View.ld_unit_zero (S := S5000x1) origin2]
  obtain ⟨e0, e1, e2, e3, e4, e5, e6, e7, e8, e9, e10, e11, e12, e13⟩ := film_index t
  have ht : t.val < 20 := t.isLt
  funext y
  have hy0 : (y 0).val < 5000 := (y 0).isLt
  have hy1 : (y 1).val < 128 := (y 1).isLt
  have hy : y = ix2 (⟨(y 0).val, hy0⟩ : Fin 5000) (⟨(y 1).val, hy1⟩ : Fin 128) :=
    funext fun a => Fin.ext (by match a with | ⟨0, _⟩ => rfl | ⟨1, _⟩ => rfl)
  have hE : ((cfg1.win 7).blk t).view.emb y = ix2 (⟨t.val * 5000 + (y 0).val, by omega⟩ : Fin 100000) (⟨(y 1).val, hy1⟩ : Fin 128) := by
    funext a; apply Fin.ext
    match a with
    | ⟨0, _⟩ => show win1_7.index t (0 : Fin 2) * 5000 + 1 * (y 0).val = t.val * 5000 + (y 0).val; omega
    | ⟨1, _⟩ => show win1_7.index t (1 : Fin 2) * 128 + 1 * (y 1).val = (y 1).val; omega
  have h0 : ∀ k : Fin 16, iblk1 V c 0 t (ix2 (⟨(y 0).val, hy0⟩ : Fin 5000) k) = V c main_arg6 (ix2 (⟨t.val * 5000 + (y 0).val, by omega⟩ : Fin 100000) k) := by
    intro k
    show V c main_arg6 (((cfg1.win 0).blk t).view.emb (ix2 (⟨(y 0).val, hy0⟩ : Fin 5000) k)) = _
    refine congrArg (V c main_arg6) (funext fun a => Fin.ext ?_)
    match a with
    | ⟨0, _⟩ => show win1_0.index t (0 : Fin 2) * 5000 + 1 * (y 0).val = t.val * 5000 + (y 0).val; omega
    | ⟨1, _⟩ => show win1_0.index t (1 : Fin 2) * 16 + 1 * k.val = k.val; omega
  have h1 : ∀ z : S16x128.Idx, iblk1 V c 1 t z = V c main_arg14 z := by
    intro z
    show V c main_arg14 (((cfg1.win 1).blk t).view.emb z) = _
    refine congrArg (V c main_arg14) (funext fun a => Fin.ext ?_)
    match a with
    | ⟨0, _⟩ => show win1_1.index t (0 : Fin 2) * 16 + 1 * (z 0).val = (z 0).val; omega
    | ⟨1, _⟩ => show win1_1.index t (1 : Fin 2) * 128 + 1 * (z 1).val = (z 1).val; omega
  have h2 : ∀ z : S128.Idx, iblk1 V c 2 t z = V c main_arg15 z := by
    intro z
    show V c main_arg15 (((cfg1.win 2).blk t).view.emb z) = _
    refine congrArg (V c main_arg15) (funext fun a => Fin.ext ?_)
    match a with
    | ⟨0, _⟩ => show win1_2.index t (0 : Fin 1) * 128 + 1 * (z 0).val = (z 0).val; omega
  have h3 : ∀ z : S16x128.Idx, iblk1 V c 3 t z = V c main_arg16 z := by
    intro z
    show V c main_arg16 (((cfg1.win 3).blk t).view.emb z) = _
    refine congrArg (V c main_arg16) (funext fun a => Fin.ext ?_)
    match a with
    | ⟨0, _⟩ => show win1_3.index t (0 : Fin 2) * 16 + 1 * (z 0).val = (z 0).val; omega
    | ⟨1, _⟩ => show win1_3.index t (1 : Fin 2) * 128 + 1 * (z 1).val = (z 1).val; omega
  have h4 : ∀ z : S128.Idx, iblk1 V c 4 t z = V c main_arg17 z := by
    intro z
    show V c main_arg17 (((cfg1.win 4).blk t).view.emb z) = _
    refine congrArg (V c main_arg17) (funext fun a => Fin.ext ?_)
    match a with
    | ⟨0, _⟩ => show win1_4.index t (0 : Fin 1) * 128 + 1 * (z 0).val = (z 0).val; omega
  have h5 : iblk1 V c 5 t (ix2 (⟨(y 0).val, hy0⟩ : Fin 5000) (⟨(y 1).val, hy1⟩ : Fin 128)) = V c main_v28 (ix2 (⟨t.val * 5000 + (y 0).val, by omega⟩ : Fin 100000) (⟨(y 1).val, hy1⟩ : Fin 128)) := by
    show V c main_v28 (((cfg1.win 5).blk t).view.emb (ix2 (⟨(y 0).val, hy0⟩ : Fin 5000) (⟨(y 1).val, hy1⟩ : Fin 128))) = _
    refine congrArg (V c main_v28) (funext fun a => Fin.ext ?_)
    match a with
    | ⟨0, _⟩ => show win1_5.index t (0 : Fin 2) * 5000 + 1 * (y 0).val = t.val * 5000 + (y 0).val; omega
    | ⟨1, _⟩ => show win1_5.index t (1 : Fin 2) * 128 + 1 * (⟨(y 1).val, hy1⟩ : Fin 128).val = (⟨(y 1).val, hy1⟩ : Fin 128).val; omega
  have h6 : iblk1 V c 6 t (ix2 (⟨(y 0).val, hy0⟩ : Fin 5000) (⟨0, Nat.one_pos⟩ : Fin 1)) = V c main_v17 (ix2 (⟨t.val * 5000 + (y 0).val, by omega⟩ : Fin 100000) (⟨0, Nat.one_pos⟩ : Fin 1)) := by
    show V c main_v17 (((cfg1.win 6).blk t).view.emb (ix2 (⟨(y 0).val, hy0⟩ : Fin 5000) (⟨0, Nat.one_pos⟩ : Fin 1))) = _
    refine congrArg (V c main_v17) (funext fun a => Fin.ext ?_)
    match a with
    | ⟨0, _⟩ => show win1_6.index t (0 : Fin 2) * 5000 + 1 * (y 0).val = t.val * 5000 + (y 0).val; omega
    | ⟨1, _⟩ => show win1_6.index t (1 : Fin 2) * 1 + 1 * (⟨0, Nat.one_pos⟩ : Fin 1).val = (⟨0, Nat.one_pos⟩ : Fin 1).val; omega
  show k1_pay1 (F := Ideal) (iblk1 V c 0 t) (iblk1 V c 1 t) (iblk1 V c 3 t) (iblk1 V c 2 t) (iblk1 V c 4 t) (iblk1 V c 5 t) (iblk1 V c 6 t) y
    = Cert.Layer.filmScaled (V c main_arg6) (V c main_arg14) (V c main_arg15) (V c main_arg16) (V c main_arg17) (V c main_v28) (V c main_v17) (((cfg1.win 7).blk t).view.emb y)
  rw [hE]
  exact (congrArg (k1_pay1 (F := Ideal) (iblk1 V c 0 t) (iblk1 V c 1 t) (iblk1 V c 3 t) (iblk1 V c 2 t) (iblk1 V c 4 t) (iblk1 V c 5 t) (iblk1 V c 6 t)) hy).trans
    (film_point (iblk1 V c 0 t) (iblk1 V c 1 t) (iblk1 V c 3 t) (iblk1 V c 2 t) (iblk1 V c 4 t) (iblk1 V c 5 t) (iblk1 V c 6 t)
      (V c main_arg6) (V c main_arg14) (V c main_arg16) (V c main_arg15) (V c main_arg17) (V c main_v28) (V c main_v17)
      ⟨(y 0).val, hy0⟩ ⟨(y 1).val, hy1⟩ ⟨t.val * 5000 + (y 0).val, by omega⟩ h0 h1 h2 h3 h4 h5 h6)

/-- An index of the output array lies in point `t`'s block iff its row is in `[5000·t, 5000·t + 5000)`. -/
theorem film_mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v29).slice (win1_7.rect t)).set ↔ _
  rw [View.set_slice_whole, Rect.mem_set_unit]
  exact Iff.rfl

/-- Every block row is some point's. -/
theorem film_onto : ∀ q0 : Fin 20, ∃ t : Fin cfg1.N, win1_7.index t = ![q0.val, 0] :=
  (by decide +kernel : ∀ q0 : Fin 20, ∃ t : Fin grid1.N, win1_7.index t = ![q0.val, 0])

/-- The blocks tile the output array. -/
theorem film_cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ := film_onto ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [film_mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- THE ARRAY after the region: the conditioned scaled aggregate of the arrays the region finds. -/
theorem film_final (c : Dev nD) :
    (dat1 V c).arrAt 7 cfg1.N = Cert.Layer.filmScaled (V c main_arg6) (V c main_arg14) (V c main_arg15) (V c main_arg16) (V c main_arg17) (V c main_v28) (V c main_v17) :=
  (dat1 V c).arrAt_eq_of_cover 7 _ (fun t _ => film_flushed V c t) film_cover

end Cert.KernelIdeal.Arrays

end
-- ==== Proof.MlpArray.lean ====
/-
  The third region's output array as one function of the arrays it reads.

  The grid has 5 points; point `t` reads rows `[4000·t, 4000·t + 4000)` of the pooled fragment sums and of the conditioning
  rows, the whole weight matrices and biases, and writes back the same rows of the output. The body's stored value at
  entry `(p, q)` of the block is `γ · h + β`, `h` the two-layer network of the block's rows, so point `t` writes back the block
  of that function of the whole arrays, and the 5 blocks tile the output's 20000 rows.
-/
import proofs.«132271_j58033598103709_2_alg».proof.Proof.Gen.KernelIdeal.Frame
import proofs.«132271_j58033598103709_2_alg».proof.Proof.BodyValues
import proofs.«132271_j58033598103709_2_alg».proof.Proof.LayerSpec
import proofs.«132271_j58033598103709_2_alg».proof.Proof.EmbedArray
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where each window's block sits at point `t` (decided over the 5 points). -/
theorem mlp_index : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = 0 ∧ win2_3.index t (1 : Fin 2) = 0 ∧ win2_4.index t (0 : Fin 1) = 0
    ∧ win2_5.index t (0 : Fin 2) = t.val ∧ win2_5.index t (1 : Fin 2) = 0
    ∧ win2_6.index t (0 : Fin 2) = 0 ∧ win2_6.index t (1 : Fin 2) = 0 ∧ win2_7.index t (0 : Fin 1) = 0
    ∧ win2_8.index t (0 : Fin 2) = 0 ∧ win2_8.index t (1 : Fin 2) = 0 ∧ win2_9.index t (0 : Fin 1) = 0
    ∧ win2_10.index t (0 : Fin 2) = t.val ∧ win2_10.index t (1 : Fin 2) = 0 :=
  (by decide +kernel : ∀ t : Fin grid2.N, _)

/-- The body's stored value at entry `(p, q)` of a block whose rows are rows of the whole arrays. -/
theorem mlp_point (x0 : Vec Ideal S4000x128 .f32) (x1 : Vec Ideal S128x256 .f32) (x2 : Vec Ideal S256 .f32) (x3 : Vec Ideal S256x128 .f32)
    (x4 : Vec Ideal S128 .f32) (x5 : Vec Ideal S4000x16 .f32) (x6 x8 : Vec Ideal S16x128 .f32) (x7 x9 : Vec Ideal S128 .f32)
    (A0 : S20000x128.Idx → EReal) (A1 : S128x256.Idx → EReal) (A2 : S256.Idx → EReal) (A3 : S256x128.Idx → EReal) (A4 : S128.Idx → EReal)
    (A5 : S20000x16.Idx → EReal) (A6 A8 : S16x128.Idx → EReal) (A7 A9 : S128.Idx → EReal) (p : Fin 4000) (q : Fin 128) (r : Fin 20000)
    (h0 : ∀ k : Fin 128, x0 (ix2 p k) = A0 (ix2 r k)) (h1 : ∀ z, x1 z = A1 z) (h2 : ∀ z, x2 z = A2 z) (h3 : ∀ z, x3 z = A3 z)
    (h4 : ∀ z, x4 z = A4 z) (h5 : ∀ k : Fin 16, x5 (ix2 p k) = A5 (ix2 r k)) (h6 : ∀ z, x6 z = A6 z) (h7 : ∀ z, x7 z = A7 z)
    (h8 : ∀ z, x8 z = A8 z) (h9 : ∀ z, x9 z = A9 z) :
    k2_pay1 (F := Ideal) x0 x1 x2 x3 x4 x5 x6 x8 x7 x9 (ix2 p q)
      = Cert.Layer.film A5 A6 A7 A8 A9 (Cert.Layer.mlp A0 A1 A2 A3 A4) (ix2 r q) := by
  rw [Cert.KernelIdeal.BodyValues.mlp_body_at]
  unfold Cert.Layer.film Cert.Layer.mlp
  show Cert.Layer.dense x5 x6 x7 (ix2 p q) * Cert.Layer.dense (fun j => max (Cert.Layer.dense x0 x1 x2 j) 0) x3 x4 (ix2 p q) + Cert.Layer.dense x5 x8 x9 (ix2 p q)
    = Cert.Layer.dense A5 A6 A7 (ix2 r q) * Cert.Layer.dense (fun j => max (Cert.Layer.dense A0 A1 A2 j) 0) A3 A4 (ix2 r q) + Cert.Layer.dense A5 A8 A9 (ix2 r q)
  rw [dense_congr A5 x5 A6 x6 A7 x7 p r q h5 (fun k => h6 _) (h7 _), dense_congr A5 x5 A8 x8 A9 x9 p r q h5 (fun k => h8 _) (h9 _),
    dense_congr (fun j => max (Cert.Layer.dense A0 A1 A2 j) 0) (fun j => max (Cert.Layer.dense x0 x1 x2 j) 0) A3 x3 A4 x4 p r q
      (fun k => congrArg (max · 0) (dense_congr A0 x0 A1 x1 A2 x2 p r k h0 (fun k' => h1 _) (h2 _))) (fun k => h3 _) (h4 _)]

set_option maxHeartbeats 2000000 in
/-- What point `t` writes back is block `t` of the conditioned network output of the arrays the region finds. -/
theorem mlp_flushed (c : Dev nD) (t : Fin cfg2.N) :
    (dat2 V c).flushed 10 t = ((cfg2.win 10).blk t).view.read (Elt Ideal)
      (Cert.Layer.film (V c main_arg7) (V c main_arg18) (V c main_arg19) (V c main_arg20) (V c main_arg21)
        (Cert.Layer.mlp (V c main_v46) (V c main_arg10) (V c main_arg11) (V c main_arg12) (V c main_arg13))) := by
  show (cfg2.win 10).cut (grid2.coords t) ((dat2 V c).after 10 t) = _
  rw [after2_10]
  unfold out2_10
  rw [View.canon_unit_zero origin2]
  simp only [View.ld_unit_zero (S := S4000x128) origin2, View.ld_unit_zero (S := S128x256) origin2, View.ld_unit_zero (S := S256) origin1, View.ld_unit_zero (S := S256x128) origin2, View.ld_unit_zero (S := S128) origin1, View.ld_unit_zero (S := S4000x16) origin2, View.ld_unit_zero (S := S16x128) origin2]
  obtain ⟨e0, e1, e2, e3, e4, e5, e6, e7, e8, e9, e10, e11, e12, e13, e14, e15, e16, e17⟩ := mlp_index t
  have ht : t.val < 5 := t.isLt
  funext y
  have hy0 : (y 0).val < 4000 := (y 0).isLt
  have hy1 : (y 1).val < 128 := (y 1).isLt
  have hy : y = ix2 (⟨(y 0).val, hy0⟩ : Fin 4000) (⟨(y 1).val, hy1⟩ : Fin 128) :=
    funext fun a => Fin.ext (by match a with | ⟨0, _⟩ => rfl | ⟨1, _⟩ => rfl)
  have hE : ((cfg2.win 10).blk t).view.emb y = ix2 (⟨t.val * 4000 + (y 0).val, by omega⟩ : Fin 20000) (⟨(y 1).val, hy1⟩ : Fin 128) := by
    funext a; apply Fin.ext
    match a with
    | ⟨0, _⟩ => show win2_10.index t (0 : Fin 2) * 4000 + 1 * (y 0).val = t.val * 4000 + (y 0).val; omega
    | ⟨1, _⟩ => show win2_10.index t (1 : Fin 2) * 128 + 1 * (y 1).val = (y 1).val; omega
  have h0 : ∀ k : Fin 128, iblk2 V c 0 t (ix2 (⟨(y 0).val, hy0⟩ : Fin 4000) k) = V c main_v46 (ix2 (⟨t.val * 4000 + (y 0).val, by omega⟩ : Fin 20000) k) := by
    intro k
    show V c main_v46 (((cfg2.win 0).blk t).view.emb (ix2 (⟨(y 0).val, hy0⟩ : Fin 4000) k)) = _
    refine congrArg (V c main_v46) (funext fun a => Fin.ext ?_)
    match a with
    | ⟨0, _⟩ => show win2_0.index t (0 : Fin 2) * 4000 + 1 * (y 0).val = t.val * 4000 + (y 0).val; omega
    | ⟨1, _⟩ => show win2_0.index t (1 : Fin 2) * 128 + 1 * k.val = k.val; omega
  have h1 : ∀ z : S128x256.Idx, iblk2 V c 1 t z = V c main_arg10 z := by
    intro z
    show V c main_arg10 (((cfg2.win 1).blk t).view.emb z) = _
    refine congrArg (V c main_arg10) (funext fun a => Fin.ext ?_)
    match a with
    | ⟨0, _⟩ => show win2_1.index t (0 : Fin 2) * 128 + 1 * (z 0).val = (z 0).val; omega
    | ⟨1, _⟩ => show win2_1.index t (1 : Fin 2) * 256 + 1 * (z 1).val = (z 1).val; omega
  have h2 : ∀ z : S256.Idx, iblk2 V c 2 t z = V c main_arg11 z := by
    intro z
    show V c main_arg11 (((cfg2.win 2).blk t).view.emb z) = _
    refine congrArg (V c main_arg11) (funext fun a => Fin.ext ?_)
    match a with
    | ⟨0, _⟩ => show win2_2.index t (0 : Fin 1) * 256 + 1 * (z 0).val = (z 0).val; omega
  have h3 : ∀ z : S256x128.Idx, iblk2 V c 3 t z = V c main_arg12 z := by
    intro z
    show V c main_arg12 (((cfg2.win 3).blk t).view.emb z) = _
    refine congrArg (V c main_arg12) (funext fun a => Fin.ext ?_)
    match a with
    | ⟨0, _⟩ => show win2_3.index t (0 : Fin 2) * 256 + 1 * (z 0).val = (z 0).val; omega
    | ⟨1, _⟩ => show win2_3.index t (1 : Fin 2) * 128 + 1 * (z 1).val = (z 1).val; omega
  have h4 : ∀ z : S128.Idx, iblk2 V c 4 t z = V c main_arg13 z := by
    intro z
    show V c main_arg13 (((cfg2.win 4).blk t).view.emb z) = _
    refine congrArg (V c main_arg13) (funext fun a => Fin.ext ?_)
    match a with
    | ⟨0, _⟩ => show win2_4.index t (0 : Fin 1) * 128 + 1 * (z 0).val = (z 0).val; omega
  have h5 : ∀ k : Fin 16, iblk2 V c 5 t (ix2 (⟨(y 0).val, hy0⟩ : Fin 4000) k) = V c main_arg7 (ix2 (⟨t.val * 4000 + (y 0).val, by omega⟩ : Fin 20000) k) := by
    intro k
    show V c main_arg7 (((cfg2.win 5).blk t).view.emb (ix2 (⟨(y 0).val, hy0⟩ : Fin 4000) k)) = _
    refine congrArg (V c main_arg7) (funext fun a => Fin.ext ?_)
    match a with
    | ⟨0, _⟩ => show win2_5.index t (0 : Fin 2) * 4000 + 1 * (y 0).val = t.val * 4000 + (y 0).val; omega
    | ⟨1, _⟩ => show win2_5.index t (1 : Fin 2) * 16 + 1 * k.val = k.val; omega
  have h6 : ∀ z : S16x128.Idx, iblk2 V c 6 t z = V c main_arg18 z := by
    intro z
    show V c main_arg18 (((cfg2.win 6).blk t).view.emb z) = _
    refine congrArg (V c main_arg18) (funext fun a => Fin.ext ?_)
    match a with
    | ⟨0, _⟩ => show win2_6.index t (0 : Fin 2) * 16 + 1 * (z 0).val = (z 0).val; omega
    | ⟨1, _⟩ => show win2_6.index t (1 : Fin 2) * 128 + 1 * (z 1).val = (z 1).val; omega
  have h7 : ∀ z : S128.Idx, iblk2 V c 7 t z = V c main_arg19 z := by
    intro z
    show V c main_arg19 (((cfg2.win 7).blk t).view.emb z) = _
    refine congrArg (V c main_arg19) (funext fun a => Fin.ext ?_)
    match a with
    | ⟨0, _⟩ => show win2_7.index t (0 : Fin 1) * 128 + 1 * (z 0).val = (z 0).val; omega
  have h8 : ∀ z : S16x128.Idx, iblk2 V c 8 t z = V c main_arg20 z := by
    intro z
    show V c main_arg20 (((cfg2.win 8).blk t).view.emb z) = _
    refine congrArg (V c main_arg20) (funext fun a => Fin.ext ?_)
    match a with
    | ⟨0, _⟩ => show win2_8.index t (0 : Fin 2) * 16 + 1 * (z 0).val = (z 0).val; omega
    | ⟨1, _⟩ => show win2_8.index t (1 : Fin 2) * 128 + 1 * (z 1).val = (z 1).val; omega
  have h9 : ∀ z : S128.Idx, iblk2 V c 9 t z = V c main_arg21 z := by
    intro z
    show V c main_arg21 (((cfg2.win 9).blk t).view.emb z) = _
    refine congrArg (V c main_arg21) (funext fun a => Fin.ext ?_)
    match a with
    | ⟨0, _⟩ => show win2_9.index t (0 : Fin 1) * 128 + 1 * (z 0).val = (z 0).val; omega
  show k2_pay1 (F := Ideal) (iblk2 V c 0 t) (iblk2 V c 1 t) (iblk2 V c 2 t) (iblk2 V c 3 t) (iblk2 V c 4 t) (iblk2 V c 5 t) (iblk2 V c 6 t) (iblk2 V c 8 t) (iblk2 V c 7 t) (iblk2 V c 9 t) y
    = Cert.Layer.film (V c main_arg7) (V c main_arg18) (V c main_arg19) (V c main_arg20) (V c main_arg21)
        (Cert.Layer.mlp (V c main_v46) (V c main_arg10) (V c main_arg11) (V c main_arg12) (V c main_arg13)) (((cfg2.win 10).blk t).view.emb y)
  rw [hE]
  exact (congrArg (k2_pay1 (F := Ideal) (iblk2 V c 0 t) (iblk2 V c 1 t) (iblk2 V c 2 t) (iblk2 V c 3 t) (iblk2 V c 4 t) (iblk2 V c 5 t) (iblk2 V c 6 t) (iblk2 V c 8 t) (iblk2 V c 7 t) (iblk2 V c 9 t)) hy).trans
    (mlp_point (iblk2 V c 0 t) (iblk2 V c 1 t) (iblk2 V c 2 t) (iblk2 V c 3 t) (iblk2 V c 4 t) (iblk2 V c 5 t) (iblk2 V c 6 t) (iblk2 V c 8 t) (iblk2 V c 7 t) (iblk2 V c 9 t)
      (V c main_v46) (V c main_arg10) (V c main_arg11) (V c main_arg12) (V c main_arg13) (V c main_arg7) (V c main_arg18) (V c main_arg20) (V c main_arg19) (V c main_arg21)
      ⟨(y 0).val, hy0⟩ ⟨(y 1).val, hy1⟩ ⟨t.val * 4000 + (y 0).val, by omega⟩ h0 h1 h2 h3 h4 h5 h6 h7 h8 h9)

/-- An index of the output array lies in point `t`'s block iff its row is in `[4000·t, 4000·t + 4000)`. -/
theorem mlp_mem_blk (t : Fin cfg2.N) (i : S20000x128.Idx) :
    i ∈ ((cfg2.win 10).blk t).view.set ↔ ∀ a : Fin 2, win2_10.index t a * S4000x128.size a ≤ (i a).val ∧ (i a).val < win2_10.index t a * S4000x128.size a + S4000x128.size a := by
  show i ∈ ((View.whole main_v47).slice (win2_10.rect t)).set ↔ _
  rw [View.set_slice_whole, Rect.mem_set_unit]
  exact Iff.rfl

/-- Every block row is some point's. -/
theorem mlp_onto : ∀ q0 : Fin 5, ∃ t : Fin cfg2.N, win2_10.index t = ![q0.val, 0] :=
  (by decide +kernel : ∀ q0 : Fin 5, ∃ t : Fin grid2.N, win2_10.index t = ![q0.val, 0])

/-- The blocks tile the output array. -/
theorem mlp_cover (i : S20000x128.Idx) : ∃ t : Fin cfg2.N, (cfg2.win 10).flush t = true ∧ i ∈ ((cfg2.win 10).blk t).view.set := by
  have hi0 : (i 0).val < 20000 := (i 0).isLt
  have hi1 : (i 1).val < 128 := (i 1).isLt
  obtain ⟨t, ht⟩ := mlp_onto ⟨(i 0).val / 4000, by omega⟩
  have q0 : win2_10.index t (0 : Fin 2) = (i 0).val / 4000 := congrFun ht 0
  have q1 : win2_10.index t (1 : Fin 2) = 0 := congrFun ht 1
  refine ⟨t, flush2_10 t, ?_⟩
  rw [mlp_mem_blk]
  intro a
  match a with
  | ⟨0, _⟩ => show win2_10.index t (0 : Fin 2) * 4000 ≤ (i 0).val ∧ (i 0).val < win2_10.index t (0 : Fin 2) * 4000 + 4000; omega
  | ⟨1, _⟩ => show win2_10.index t (1 : Fin 2) * 128 ≤ (i 1).val ∧ (i 1).val < win2_10.index t (1 : Fin 2) * 128 + 128; omega

/-- THE ARRAY after the region: the conditioned network output of the arrays the region finds. -/
theorem mlp_final (c : Dev nD) :
    (dat2 V c).arrAt 10 cfg2.N = Cert.Layer.film (V c main_arg7) (V c main_arg18) (V c main_arg19) (V c main_arg20) (V c main_arg21)
      (Cert.Layer.mlp (V c main_v46) (V c main_arg10) (V c main_arg11) (V c main_arg12) (V c main_arg13)) :=
  (dat2 V c).arrAt_eq_of_cover 10 _ (fun t _ => mlp_flushed V c t) mlp_cover

end Cert.KernelIdeal.Arrays

end
-- ==== Proof.KernelValues.lean ====
/-
  The idealized kernel program's two result arrays as functions of its arguments.

  The program is three regions among stretches of host operations. Reading the fold through its segments backwards:
    * before the first region the host computes the self-looped source and target position arrays and the column of
      scales `dis` (one entry per atom), all from the edge index argument alone; the first region then leaves the scaled
      dense layer of the atom features;
    * the next stretch takes its rows at the wrapped source positions and adds them into the rows at the target positions;
      the second region conditions that aggregate, scaled by `dis` once more — the first result;
    * the last stretch pools the first result into fragments, takes and adds along the fragment edges, and the third
      region applies the conditioned two-layer network — the second result.
  The position arrays and `dis` are the same host operations in the reference program, so they are named here by the
  reference's own stage functions (of the same argument).
-/
import proofs.«132271_j58033598103709_2_alg».proof.Proof.KernelRun
import proofs.«132271_j58033598103709_2_alg».proof.Proof.EmbedArray
import proofs.«132271_j58033598103709_2_alg».proof.Proof.FilmArray
import proofs.«132271_j58033598103709_2_alg».proof.Proof.MlpArray
import proofs.«132271_j58033598103709_2_alg».proof.Proof.RefReadP
import Idealize.ShloMosaic.Lib.StableHlo.Run

set_option maxRecDepth 16384

noncomputable section

namespace Cert.KernelIdeal.Values

open Cert.KernelIdeal Cert.KernelIdeal.Gen Cert.KernelIdeal.Arrays Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Before the first region -/

theorem entry0_arg0 : V3 m ρ c main_arg0 = m ((c.tc : Thread nD τ).loc main_arg0) := by
  dsimp only [V3, W3, W2, W1] <;> after_results_simp <;> rfl
theorem entry0_arg8 : V3 m ρ c main_arg8 = m ((c.tc : Thread nD τ).loc main_arg8) := by
  dsimp only [V3, W3, W2, W1] <;> after_results_simp <;> rfl
theorem entry0_arg9 : V3 m ρ c main_arg9 = m ((c.tc : Thread nD τ).loc main_arg9) := by
  dsimp only [V3, W3, W2, W1] <;> after_results_simp <;> rfl

/-- The source positions, with the self loops. -/
theorem entry0_src : W3 m ρ c (Proc.devRef .tc main_v3)
    = Cert.ReferenceIdeal.ReadP.val_main_v3 (F := Ideal) (m ((c.tc : Thread nD τ).loc main_arg1)) := by
  dsimp only [W3, W2, W1] <;> after_results_simp <;> rfl
/-- The target positions, with the self loops. -/
theorem entry0_tgt : W3 m ρ c (Proc.devRef .tc main_v6)
    = Cert.ReferenceIdeal.ReadP.val_main_v6 (F := Ideal) (m ((c.tc : Thread nD τ).loc main_arg1)) := by
  dsimp only [W3, W2, W1] <;> after_results_simp <;> rfl
/-- Rewrites what is left of a line of host operations' results after the one-pass simplification: each operation's result
    at its own buffer to its function's value, at another buffer to what was there. -/
macro "finish_results" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-- The column of scales `where(deg > 0, rsqrt(max(deg, ε)), 0)`: the same selection of the same three arrays as the
    reference's. The selection is made inside an outlined function whose buffers carry their tensor types by a transport
    along a type equality; a transported value is the value (heterogeneously), so the three operands are compared one by
    one. -/
theorem dis_stage : W2 m ρ c (Proc.devRef .tc main_v16)
    = Cert.ReferenceIdeal.ReadP.val_main_v20 (F := Ideal) (m ((c.tc : Thread nD τ).loc main_arg1)) := by
  dsimp only [W2, W1]
  after_results_simp
  finish_results
  refine eq_of_heq ((cast_heq _ _).trans (heq_of_eq ?_))
  unfold Cert.ReferenceIdeal.ReadP.val_main_v20
  refine congr (congr (congrArg select (eq_of_heq ((cast_heq _ _).trans (heq_of_eq ?_)))) (eq_of_heq ((cast_heq _ _).trans (heq_of_eq ?_)))) ?_
  · rfl
  · rfl
  · refine eq_of_heq ((cast_heq _ _).trans ((cast_heq _ _).trans (heq_of_eq ?_)))
    unfold Cert.ReferenceIdeal.ReadP.val_main_call0_v1
    refine congrArg _ (eq_of_heq ((cast_heq _ _).trans ((cast_heq _ _).trans (heq_of_eq ?_))))
    unfold Cert.ReferenceIdeal.ReadP.val_main_call0_v0
    refine congrArg id (eq_of_heq ((cast_heq _ _).trans (heq_of_eq ?_)))
    rfl

/-- The column of scales, as a one-column matrix. -/
theorem entry0_dis : V3 m ρ c main_v17
    = shapeCast S100000x1 (Cert.ReferenceIdeal.ReadP.val_main_v20 (F := Ideal) (m ((c.tc : Thread nD τ).loc main_arg1))) shapeCasts_S100000_S100000x1 := by
  have h : V3 m ρ c main_v17 = shapeCast S100000x1 (W2 m ρ c (Proc.devRef .tc main_v16)) shapeCasts_S100000_S100000x1 := by
    dsimp only [V3, W3]
    after_results_simp
    finish_results
    rfl
  rw [h, dis_stage]

/-! ## The first region's output, and what the second region finds -/

/-- The first region leaves the scaled dense layer of the atom features. -/
theorem region0_out : W4 m ρ c (Proc.devRef .tc main_v18) = (Cert.Layer.denseScaled (m ((c.tc : Thread nD τ).loc main_arg0)) (m ((c.tc : Thread nD τ).loc main_arg8)) (m ((c.tc : Thread nD τ).loc main_arg9)) (shapeCast S100000x1 (Cert.ReferenceIdeal.ReadP.val_main_v20 (F := Ideal) (m ((c.tc : Thread nD τ).loc main_arg1))) shapeCasts_S100000_S100000x1)) := by
  refine (W4_arr m ρ c 4).trans ((embed_final (V3 m ρ) c).trans ?_)
  rw [entry0_arg0, entry0_arg8, entry0_arg9, entry0_dis]

theorem mid_src : W4 m ρ c (Proc.devRef .tc main_v3) = Cert.ReferenceIdeal.ReadP.val_main_v3 (F := Ideal) (m ((c.tc : Thread nD τ).loc main_arg1)) :=
  (W4_of_ne m ρ c main_v3 (by decide)).trans (entry0_src m ρ c)
theorem mid_tgt : W4 m ρ c (Proc.devRef .tc main_v6) = Cert.ReferenceIdeal.ReadP.val_main_v6 (F := Ideal) (m ((c.tc : Thread nD τ).loc main_arg1)) :=
  (W4_of_ne m ρ c main_v6 (by decide)).trans (entry0_tgt m ρ c)

/-- The column of scales is untouched by the first region and the stretch after it. -/
theorem entry1_dis : V5 m ρ c main_v17 = (shapeCast S100000x1 (Cert.ReferenceIdeal.ReadP.val_main_v20 (F := Ideal) (m ((c.tc : Thread nD τ).loc main_arg1))) shapeCasts_S100000_S100000x1) := by
  have h : V5 m ρ c main_v17 = W4 m ρ c (Proc.devRef .tc main_v17) := by dsimp only [V5, W5] <;> after_results_simp
  exact h.trans ((W4_arr m ρ c 3).trans (((dat0 (V3 m ρ) c).arrAt_in 3 rfl _).trans ((A_eq0 (V3 m ρ) c 3).trans (entry0_dis m ρ c))))

/-- The aggregate: rows of the first region's output taken at the wrapped source positions and added at the targets. -/
theorem entry1_agg : V5 m ρ c main_v28 = (Host.scatterAdd (F := Ideal) (φ := .f32) scatter_S100000x128_S1700000x1_S1700000x128_1_0_0_1 (Cert.ReferenceIdeal.ReadP.val_main_v46 (F := Ideal)) (Cert.ReferenceIdeal.ReadP.val_main_v47 (F := Ideal) (m ((c.tc : Thread nD τ).loc main_arg1)))
      (Host.gather gather_S100000x128_S1700000x1_S1700000x128_1_0_n_n_0_1_1128 (Cert.Layer.denseScaled (m ((c.tc : Thread nD τ).loc main_arg0)) (m ((c.tc : Thread nD τ).loc main_arg8)) (m ((c.tc : Thread nD τ).loc main_arg9)) (shapeCast S100000x1 (Cert.ReferenceIdeal.ReadP.val_main_v20 (F := Ideal) (m ((c.tc : Thread nD τ).loc main_arg1))) shapeCasts_S100000_S100000x1)) (Cert.ReferenceIdeal.ReadP.val_main_v41 (F := Ideal) (m ((c.tc : Thread nD τ).loc main_arg1))))) := by
  dsimp only [V5, W5]
  after_results_simp
  rw [region0_out, mid_src, mid_tgt]
  rfl

theorem entry1_arg6 : V5 m ρ c main_arg6 = m ((c.tc : Thread nD τ).loc main_arg6) := by
  have h1 : V5 m ρ c main_arg6 = W4 m ρ c (Proc.devRef .tc main_arg6) := by dsimp only [V5, W5] <;> after_results_simp
  have h2 : W3 m ρ c (Proc.devRef .tc main_arg6) = m ((c.tc : Thread nD τ).loc main_arg6) := by dsimp only [W3, W2, W1] <;> after_results_simp <;> rfl
  exact h1.trans ((W4_of_ne m ρ c main_arg6 (by decide)).trans h2)
theorem entry1_arg14 : V5 m ρ c main_arg14 = m ((c.tc : Thread nD τ).loc main_arg14) := by
  have h1 : V5 m ρ c main_arg14 = W4 m ρ c (Proc.devRef .tc main_arg14) := by dsimp only [V5, W5] <;> after_results_simp
  have h2 : W3 m ρ c (Proc.devRef .tc main_arg14) = m ((c.tc : Thread nD τ).loc main_arg14) := by dsimp only [W3, W2, W1] <;> after_results_simp <;> rfl
  exact h1.trans ((W4_of_ne m ρ c main_arg14 (by decide)).trans h2)
theorem entry1_arg15 : V5 m ρ c main_arg15 = m ((c.tc : Thread nD τ).loc main_arg15) := by
  have h1 : V5 m ρ c main_arg15 = W4 m ρ c (Proc.devRef .tc main_arg15) := by dsimp only [V5, W5] <;> after_results_simp
  have h2 : W3 m ρ c (Proc.devRef .tc main_arg15) = m ((c.tc : Thread nD τ).loc main_arg15) := by dsimp only [W3, W2, W1] <;> after_results_simp <;> rfl
  exact h1.trans ((W4_of_ne m ρ c main_arg15 (by decide)).trans h2)
theorem entry1_arg16 : V5 m ρ c main_arg16 = m ((c.tc : Thread nD τ).loc main_arg16) := by
  have h1 : V5 m ρ c main_arg16 = W4 m ρ c (Proc.devRef .tc main_arg16) := by dsimp only [V5, W5] <;> after_results_simp
  have h2 : W3 m ρ c (Proc.devRef .tc main_arg16) = m ((c.tc : Thread nD τ).loc main_arg16) := by dsimp only [W3, W2, W1] <;> after_results_simp <;> rfl
  exact h1.trans ((W4_of_ne m ρ c main_arg16 (by decide)).trans h2)
theorem entry1_arg17 : V5 m ρ c main_arg17 = m ((c.tc : Thread nD τ).loc main_arg17) := by
  have h1 : V5 m ρ c main_arg17 = W4 m ρ c (Proc.devRef .tc main_arg17) := by dsimp only [V5, W5] <;> after_results_simp
  have h2 : W3 m ρ c (Proc.devRef .tc main_arg17) = m ((c.tc : Thread nD τ).loc main_arg17) := by dsimp only [W3, W2, W1] <;> after_results_simp <;> rfl
  exact h1.trans ((W4_of_ne m ρ c main_arg17 (by decide)).trans h2)

/-! ## The first result -/

/-- The second region leaves the conditioned aggregate, scaled once more by the column of scales. -/
theorem region1_out : W6 m ρ c (Proc.devRef .tc main_v29) = (Cert.Layer.filmScaled (m ((c.tc : Thread nD τ).loc main_arg6)) (m ((c.tc : Thread nD τ).loc main_arg14)) (m ((c.tc : Thread nD τ).loc main_arg15)) (m ((c.tc : Thread nD τ).loc main_arg16)) (m ((c.tc : Thread nD τ).loc main_arg17)) (Host.scatterAdd (F := Ideal) (φ := .f32) scatter_S100000x128_S1700000x1_S1700000x128_1_0_0_1 (Cert.ReferenceIdeal.ReadP.val_main_v46 (F := Ideal)) (Cert.ReferenceIdeal.ReadP.val_main_v47 (F := Ideal) (m ((c.tc : Thread nD τ).loc main_arg1)))
      (Host.gather gather_S100000x128_S1700000x1_S1700000x128_1_0_n_n_0_1_1128 (Cert.Layer.denseScaled (m ((c.tc : Thread nD τ).loc main_arg0)) (m ((c.tc : Thread nD τ).loc main_arg8)) (m ((c.tc : Thread nD τ).loc main_arg9)) (shapeCast S100000x1 (Cert.ReferenceIdeal.ReadP.val_main_v20 (F := Ideal) (m ((c.tc : Thread nD τ).loc main_arg1))) shapeCasts_S100000_S100000x1)) (Cert.ReferenceIdeal.ReadP.val_main_v41 (F := Ideal) (m ((c.tc : Thread nD τ).loc main_arg1))))) (shapeCast S100000x1 (Cert.ReferenceIdeal.ReadP.val_main_v20 (F := Ideal) (m ((c.tc : Thread nD τ).loc main_arg1))) shapeCasts_S100000_S100000x1)) := by
  refine (W6_arr m ρ c 7).trans ((film_final (V5 m ρ) c).trans ?_)
  rw [entry1_arg6, entry1_arg14, entry1_arg15, entry1_arg16, entry1_arg17, entry1_agg, entry1_dis]

/-- Nothing after the second region writes its output: the first result. -/
theorem result0 : W8 m ρ c (Proc.devRef .tc main_v29) = (Cert.Layer.filmScaled (m ((c.tc : Thread nD τ).loc main_arg6)) (m ((c.tc : Thread nD τ).loc main_arg14)) (m ((c.tc : Thread nD τ).loc main_arg15)) (m ((c.tc : Thread nD τ).loc main_arg16)) (m ((c.tc : Thread nD τ).loc main_arg17)) (Host.scatterAdd (F := Ideal) (φ := .f32) scatter_S100000x128_S1700000x1_S1700000x128_1_0_0_1 (Cert.ReferenceIdeal.ReadP.val_main_v46 (F := Ideal)) (Cert.ReferenceIdeal.ReadP.val_main_v47 (F := Ideal) (m ((c.tc : Thread nD τ).loc main_arg1)))
      (Host.gather gather_S100000x128_S1700000x1_S1700000x128_1_0_n_n_0_1_1128 (Cert.Layer.denseScaled (m ((c.tc : Thread nD τ).loc main_arg0)) (m ((c.tc : Thread nD τ).loc main_arg8)) (m ((c.tc : Thread nD τ).loc main_arg9)) (shapeCast S100000x1 (Cert.ReferenceIdeal.ReadP.val_main_v20 (F := Ideal) (m ((c.tc : Thread nD τ).loc main_arg1))) shapeCasts_S100000_S100000x1)) (Cert.ReferenceIdeal.ReadP.val_main_v41 (F := Ideal) (m ((c.tc : Thread nD τ).loc main_arg1))))) (shapeCast S100000x1 (Cert.ReferenceIdeal.ReadP.val_main_v20 (F := Ideal) (m ((c.tc : Thread nD τ).loc main_arg1))) shapeCasts_S100000_S100000x1)) := by
  have h : W7 m ρ c (Proc.devRef .tc main_v29) = W6 m ρ c (Proc.devRef .tc main_v29) := by dsimp only [W7] <;> after_results_simp
  exact (W8_of_ne m ρ c main_v29 (by decide)).trans (h.trans (region1_out m ρ c))

/-! ## What the third region finds, and the second result -/

theorem late_arg3 : W6 m ρ c (Proc.devRef .tc main_arg3) = m ((c.tc : Thread nD τ).loc main_arg3) := by
  have h2 : W5 m ρ c (Proc.devRef .tc main_arg3) = W4 m ρ c (Proc.devRef .tc main_arg3) := by dsimp only [W5] <;> after_results_simp
  have h3 : W3 m ρ c (Proc.devRef .tc main_arg3) = m ((c.tc : Thread nD τ).loc main_arg3) := by dsimp only [W3, W2, W1] <;> after_results_simp <;> rfl
  exact (W6_of_ne m ρ c main_arg3 (by decide)).trans (h2.trans ((W4_of_ne m ρ c main_arg3 (by decide)).trans h3))
theorem late_arg5 : W6 m ρ c (Proc.devRef .tc main_arg5) = m ((c.tc : Thread nD τ).loc main_arg5) := by
  have h2 : W5 m ρ c (Proc.devRef .tc main_arg5) = W4 m ρ c (Proc.devRef .tc main_arg5) := by dsimp only [W5] <;> after_results_simp
  have h3 : W3 m ρ c (Proc.devRef .tc main_arg5) = m ((c.tc : Thread nD τ).loc main_arg5) := by dsimp only [W3, W2, W1] <;> after_results_simp <;> rfl
  exact (W6_of_ne m ρ c main_arg5 (by decide)).trans (h2.trans ((W4_of_ne m ρ c main_arg5 (by decide)).trans h3))
theorem entry2_arg7 : V7 m ρ c main_arg7 = m ((c.tc : Thread nD τ).loc main_arg7) := by
  have h1 : V7 m ρ c main_arg7 = W6 m ρ c (Proc.devRef .tc main_arg7) := by dsimp only [V7, W7] <;> after_results_simp
  have h2 : W5 m ρ c (Proc.devRef .tc main_arg7) = W4 m ρ c (Proc.devRef .tc main_arg7) := by dsimp only [W5] <;> after_results_simp
  have h3 : W3 m ρ c (Proc.devRef .tc main_arg7) = m ((c.tc : Thread nD τ).loc main_arg7) := by dsimp only [W3, W2, W1] <;> after_results_simp <;> rfl
  exact h1.trans ((W6_of_ne m ρ c main_arg7 (by decide)).trans (h2.trans ((W4_of_ne m ρ c main_arg7 (by decide)).trans h3)))
theorem entry2_arg10 : V7 m ρ c main_arg10 = m ((c.tc : Thread nD τ).loc main_arg10) := by
  have h1 : V7 m ρ c main_arg10 = W6 m ρ c (Proc.devRef .tc main_arg10) := by dsimp only [V7, W7] <;> after_results_simp
  have h2 : W5 m ρ c (Proc.devRef .tc main_arg10) = W4 m ρ c (Proc.devRef .tc main_arg10) := by dsimp only [W5] <;> after_results_simp
  have h3 : W3 m ρ c (Proc.devRef .tc main_arg10) = m ((c.tc : Thread nD τ).loc main_arg10) := by dsimp only [W3, W2, W1] <;> after_results_simp <;> rfl
  exact h1.trans ((W6_of_ne m ρ c main_arg10 (by decide)).trans (h2.trans ((W4_of_ne m ρ c main_arg10 (by decide)).trans h3)))
theorem entry2_arg11 : V7 m ρ c main_arg11 = m ((c.tc : Thread nD τ).loc main_arg11) := by
  have h1 : V7 m ρ c main_arg11 = W6 m ρ c (Proc.devRef .tc main_arg11) := by dsimp only [V7, W7] <;> after_results_simp
  have h2 : W5 m ρ c (Proc.devRef .tc main_arg11) = W4 m ρ c (Proc.devRef .tc main_arg11) := by dsimp only [W5] <;> after_results_simp
  have h3 : W3 m ρ c (Proc.devRef .tc main_arg11) = m ((c.tc : Thread nD τ).loc main_arg11) := by dsimp only [W3, W2, W1] <;> after_results_simp <;> rfl
  exact h1.trans ((W6_of_ne m ρ c main_arg11 (by decide)).trans (h2.trans ((W4_of_ne m ρ c main_arg11 (by decide)).trans h3)))
theorem entry2_arg12 : V7 m ρ c main_arg12 = m ((c.tc : Thread nD τ).loc main_arg12) := by
  have h1 : V7 m ρ c main_arg12 = W6 m ρ c (Proc.devRef .tc main_arg12) := by dsimp only [V7, W7] <;> after_results_simp
  have h2 : W5 m ρ c (Proc.devRef .tc main_arg12) = W4 m ρ c (Proc.devRef .tc main_arg12) := by dsimp only [W5] <;> after_results_simp
  have h3 : W3 m ρ c (Proc.devRef .tc main_arg12) = m ((c.tc : Thread nD τ).loc main_arg12) := by dsimp only [W3, W2, W1] <;> after_results_simp <;> rfl
  exact h1.trans ((W6_of_ne m ρ c main_arg12 (by decide)).trans (h2.trans ((W4_of_ne m ρ c main_arg12 (by decide)).trans h3)))
theorem entry2_arg13 : V7 m ρ c main_arg13 = m ((c.tc : Thread nD τ).loc main_arg13) := by
  have h1 : V7 m ρ c main_arg13 = W6 m ρ c (Proc.devRef .tc main_arg13) := by dsimp only [V7, W7] <;> after_results_simp
  have h2 : W5 m ρ c (Proc.devRef .tc main_arg13) = W4 m ρ c (Proc.devRef .tc main_arg13) := by dsimp only [W5] <;> after_results_simp
  have h3 : W3 m ρ c (Proc.devRef .tc main_arg13) = m ((c.tc : Thread nD τ).loc main_arg13) := by dsimp only [W3, W2, W1] <;> after_results_simp <;> rfl
  exact h1.trans ((W6_of_ne m ρ c main_arg13 (by decide)).trans (h2.trans ((W4_of_ne m ρ c main_arg13 (by decide)).trans h3)))
theorem entry2_arg18 : V7 m ρ c main_arg18 = m ((c.tc : Thread nD τ).loc main_arg18) := by
  have h1 : V7 m ρ c main_arg18 = W6 m ρ c (Proc.devRef .tc main_arg18) := by dsimp only [V7, W7] <;> after_results_simp
  have h2 : W5 m ρ c (Proc.devRef .tc main_arg18) = W4 m ρ c (Proc.devRef .tc main_arg18) := by dsimp only [W5] <;> after_results_simp
  have h3 : W3 m ρ c (Proc.devRef .tc main_arg18) = m ((c.tc : Thread nD τ).loc main_arg18) := by dsimp only [W3, W2, W1] <;> after_results_simp <;> rfl
  exact h1.trans ((W6_of_ne m ρ c main_arg18 (by decide)).trans (h2.trans ((W4_of_ne m ρ c main_arg18 (by decide)).trans h3)))
theorem entry2_arg19 : V7 m ρ c main_arg19 = m ((c.tc : Thread nD τ).loc main_arg19) := by
  have h1 : V7 m ρ c main_arg19 = W6 m ρ c (Proc.devRef .tc main_arg19) := by dsimp only [V7, W7] <;> after_results_simp
  have h2 : W5 m ρ c (Proc.devRef .tc main_arg19) = W4 m ρ c (Proc.devRef .tc main_arg19) := by dsimp only [W5] <;> after_results_simp
  have h3 : W3 m ρ c (Proc.devRef .tc main_arg19) = m ((c.tc : Thread nD τ).loc main_arg19) := by dsimp only [W3, W2, W1] <;> after_results_simp <;> rfl
  exact h1.trans ((W6_of_ne m ρ c main_arg19 (by decide)).trans (h2.trans ((W4_of_ne m ρ c main_arg19 (by decide)).trans h3)))
theorem entry2_arg20 : V7 m ρ c main_arg20 = m ((c.tc : Thread nD τ).loc main_arg20) := by
  have h1 : V7 m ρ c main_arg20 = W6 m ρ c (Proc.devRef .tc main_arg20) := by dsimp only [V7, W7] <;> after_results_simp
  have h2 : W5 m ρ c (Proc.devRef .tc main_arg20) = W4 m ρ c (Proc.devRef .tc main_arg20) := by dsimp only [W5] <;> after_results_simp
  have h3 : W3 m ρ c (Proc.devRef .tc main_arg20) = m ((c.tc : Thread nD τ).loc main_arg20) := by dsimp only [W3, W2, W1] <;> after_results_simp <;> rfl
  exact h1.trans ((W6_of_ne m ρ c main_arg20 (by decide)).trans (h2.trans ((W4_of_ne m ρ c main_arg20 (by decide)).trans h3)))
theorem entry2_arg21 : V7 m ρ c main_arg21 = m ((c.tc : Thread nD τ).loc main_arg21) := by
  have h1 : V7 m ρ c main_arg21 = W6 m ρ c (Proc.devRef .tc main_arg21) := by dsimp only [V7, W7] <;> after_results_simp
  have h2 : W5 m ρ c (Proc.devRef .tc main_arg21) = W4 m ρ c (Proc.devRef .tc main_arg21) := by dsimp only [W5] <;> after_results_simp
  have h3 : W3 m ρ c (Proc.devRef .tc main_arg21) = m ((c.tc : Thread nD τ).loc main_arg21) := by dsimp only [W3, W2, W1] <;> after_results_simp <;> rfl
  exact h1.trans ((W6_of_ne m ρ c main_arg21 (by decide)).trans (h2.trans ((W4_of_ne m ρ c main_arg21 (by decide)).trans h3)))

/-- The pooled fragment sums: the first result added into fragments, taken along the fragment edges' sources and added
    at their targets. -/
theorem entry2_pool : V7 m ρ c main_v46 = (Host.scatterAdd (F := Ideal) (φ := .f32) scatter_S20000x128_S100000x1_S100000x128_1_0_0_1 (Cert.ReferenceIdeal.ReadP.val_main_v73 (F := Ideal)) (Cert.ReferenceIdeal.ReadP.val_main_v74 (F := Ideal) (m ((c.tc : Thread nD τ).loc main_arg3)))
      (Host.gather gather_S20000x128_S100000x1_S100000x128_1_0_n_n_0_1_1128
        (Host.scatterAdd (F := Ideal) (φ := .f32) scatter_S20000x128_S100000x1_S100000x128_1_0_0_1 (Cert.ReferenceIdeal.ReadP.val_main_v59 (F := Ideal)) (Cert.ReferenceIdeal.ReadP.val_main_v60 (F := Ideal) (m ((c.tc : Thread nD τ).loc main_arg5))) (W6 m ρ c (Proc.devRef .tc main_v29)))
        (Cert.ReferenceIdeal.ReadP.val_main_v71 (F := Ideal) (m ((c.tc : Thread nD τ).loc main_arg3))))) := by
  dsimp only [V7, W7]
  after_results_simp
  rw [late_arg3, late_arg5]
  rfl

/-- The third region leaves the conditioned two-layer network of the pooled fragment sums: the second result. -/
theorem result1 : W8 m ρ c (Proc.devRef .tc main_v47)
    = Cert.Layer.film (m ((c.tc : Thread nD τ).loc main_arg7)) (m ((c.tc : Thread nD τ).loc main_arg18)) (m ((c.tc : Thread nD τ).loc main_arg19)) (m ((c.tc : Thread nD τ).loc main_arg20)) (m ((c.tc : Thread nD τ).loc main_arg21))
        (Cert.Layer.mlp (Host.scatterAdd (F := Ideal) (φ := .f32) scatter_S20000x128_S100000x1_S100000x128_1_0_0_1 (Cert.ReferenceIdeal.ReadP.val_main_v73 (F := Ideal)) (Cert.ReferenceIdeal.ReadP.val_main_v74 (F := Ideal) (m ((c.tc : Thread nD τ).loc main_arg3)))
      (Host.gather gather_S20000x128_S100000x1_S100000x128_1_0_n_n_0_1_1128
        (Host.scatterAdd (F := Ideal) (φ := .f32) scatter_S20000x128_S100000x1_S100000x128_1_0_0_1 (Cert.ReferenceIdeal.ReadP.val_main_v59 (F := Ideal)) (Cert.ReferenceIdeal.ReadP.val_main_v60 (F := Ideal) (m ((c.tc : Thread nD τ).loc main_arg5))) (Cert.Layer.filmScaled (m ((c.tc : Thread nD τ).loc main_arg6)) (m ((c.tc : Thread nD τ).loc main_arg14)) (m ((c.tc : Thread nD τ).loc main_arg15)) (m ((c.tc : Thread nD τ).loc main_arg16)) (m ((c.tc : Thread nD τ).loc main_arg17)) (Host.scatterAdd (F := Ideal) (φ := .f32) scatter_S100000x128_S1700000x1_S1700000x128_1_0_0_1 (Cert.ReferenceIdeal.ReadP.val_main_v46 (F := Ideal)) (Cert.ReferenceIdeal.ReadP.val_main_v47 (F := Ideal) (m ((c.tc : Thread nD τ).loc main_arg1)))
      (Host.gather gather_S100000x128_S1700000x1_S1700000x128_1_0_n_n_0_1_1128 (Cert.Layer.denseScaled (m ((c.tc : Thread nD τ).loc main_arg0)) (m ((c.tc : Thread nD τ).loc main_arg8)) (m ((c.tc : Thread nD τ).loc main_arg9)) (shapeCast S100000x1 (Cert.ReferenceIdeal.ReadP.val_main_v20 (F := Ideal) (m ((c.tc : Thread nD τ).loc main_arg1))) shapeCasts_S100000_S100000x1)) (Cert.ReferenceIdeal.ReadP.val_main_v41 (F := Ideal) (m ((c.tc : Thread nD τ).loc main_arg1))))) (shapeCast S100000x1 (Cert.ReferenceIdeal.ReadP.val_main_v20 (F := Ideal) (m ((c.tc : Thread nD τ).loc main_arg1))) shapeCasts_S100000_S100000x1)))
        (Cert.ReferenceIdeal.ReadP.val_main_v71 (F := Ideal) (m ((c.tc : Thread nD τ).loc main_arg3))))) (m ((c.tc : Thread nD τ).loc main_arg10)) (m ((c.tc : Thread nD τ).loc main_arg11)) (m ((c.tc : Thread nD τ).loc main_arg12)) (m ((c.tc : Thread nD τ).loc main_arg13))) := by
  refine (W8_arr m ρ c 10).trans ((mlp_final (V7 m ρ) c).trans ?_)
  rw [entry2_arg7, entry2_arg18, entry2_arg19, entry2_arg20, entry2_arg21, entry2_arg10, entry2_arg11, entry2_arg12, entry2_arg13,
    entry2_pool, region1_out]

end Cert.KernelIdeal.Values

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«132271_j58033598103709_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.RefValues.lean ====
/-
  The reference program's dense stages read at one entry at the ideal values (the extended reals): a host matrix product
  is a finite sum of products, and a bias row broadcast to a unit leading axis and then over the rows is read at the
  entry's column. So each dense stage is the entrywise dense layer, the conditioning stages are `γ · y + β`, and the
  fragment network is a dense layer of the positive part of a dense layer.
-/
import proofs.«132271_j58033598103709_2_alg».proof.Proof.RefReadP
import proofs.«132271_j58033598103709_2_alg».proof.Proof.LayerSpec
import proofs.«132271_j58033598103709_2_alg».proof.Proof.LibDotGeneralEntry
import Idealize.ShloMosaic.Lib.Pipeline.Value
import Idealize.ShloMosaic.Lib.ValueIdx
import Idealize.ShloMosaic.PureOps.Ideal.Laws

noncomputable section

open scoped BigOperators

namespace Cert.ReferenceIdeal.RefValues

open Cert.ReferenceIdeal Cert.ReferenceIdeal.Gen Cert.ReferenceIdeal.ReadP Idealize.ShloMosaic Idealize.ShloMosaic.ValueIdx

/-! ## A dense stage at one entry, over generic extents -/

/-- An `[N]` array broadcast to `[1, N]` along axis 1 and then to `[M, N]` reads, at `(p, q)`, the array at `q`. -/
theorem biasBcast_apply {α : Type} {M N : Nat}
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (p : Fin M) (q : Fin N) :
    broadcastInDim ⟨2, ![M, N]⟩ (![0, 1] : Fin 2 → Fin 2) h2
        (broadcastInDim ⟨2, ![1, N]⟩ (![1] : Fin 1 → Fin 2) h1 b) (ix2 p q) = b (ix1 q) := by
  refine (broadcastInDim_apply _ h2 _ (ix2 p q) (ix2 (⟨0, Nat.one_pos⟩ : Fin 1) q) fun a => ?_).trans
    (broadcastInDim_apply _ h1 b (ix2 (⟨0, Nat.one_pos⟩ : Fin 1) q) (ix1 q) fun a => ?_)
  · match a with
    | ⟨0, _⟩ => rfl
    | ⟨1, _⟩ =>
      show q.val = if N = 1 then 0 else q.val
      split
      · have := q.isLt; omega
      · rfl
  · match a with
    | ⟨0, _⟩ =>
      show q.val = if N = 1 then 0 else q.val
      split
      · have := q.isLt; omega
      · rfl

/-- A host matrix product `[M, K] × [K, N]` plus a bias row broadcast over the rows is, at `(p, q)`, the dense layer's entry
    `Σ_k a[p, k] · w[k, q] + b[q]`. -/
theorem denseStage_at {M K N : Nat} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (a : FVec Ideal ⟨2, ![M, K]⟩ .f32) (w : FVec Ideal ⟨2, ![K, N]⟩ .f32) (b : FVec Ideal ⟨1, ![N]⟩ .f32)
    (p : Fin M) (q : Fin N) :
    addf (F := Ideal) (Host.dotGeneral D none a w)
        (broadcastInDim ⟨2, ![M, N]⟩ (![0, 1] : Fin 2 → Fin 2) h2 (broadcastInDim ⟨2, ![1, N]⟩ (![1] : Fin 1 → Fin 2) h1 b))
        (ix2 p q)
      = Cert.Layer.dense a w b (ix2 p q) := by
  rw [addf_apply, biasBcast_apply h1 h2 b p q]
  show FloatOps.dotGeneral D none .single a w (ix2 p q) + _ = _
  rw [Ideal.dotGeneral_rows_cols D hlb hln hlc hrb hrn hrc none .single a w p q]
  rfl

/-! ## The atom embedding -/

/-- The reference's embedding at `(n, c)` is the dense layer's entry there. -/
theorem ref_embed_at (x0 : (⟨S100000x128, .f32⟩ : BufTy).Contents (Elt Ideal)) (x8 : (⟨S128x128, .f32⟩ : BufTy).Contents (Elt Ideal))
    (x9 : (⟨S128, .f32⟩ : BufTy).Contents (Elt Ideal)) (n : Fin 100000) (c : Fin 128) :
    val_main_v10 (F := Ideal) x0 x8 x9 (ix2 n c) = Cert.Layer.dense x0 x8 x9 (ix2 n c) := by
  unfold val_main_v10 val_main_v9 val_main_v8 val_main_v7
  exact denseStage_at dot_S100000x128_S128x128_S100000x128_1_0_0_1_n_n rfl rfl rfl rfl rfl rfl
    bcast_S128_S1x128_1 bcast_S1x128_S100000x128_0_1 x0 x8 x9 n c

/-! ## The conditioning of the aggregate -/

/-- The reference's first output at `(n, c)` is `γ · y + β` there, `y` the aggregate and `γ`, `β` the dense layers of the
    conditioning rows. -/
theorem ref_out0_at (x0 : (⟨S100000x128, .f32⟩ : BufTy).Contents (Elt Ideal)) (x1 : (⟨S2x1600000, .i32⟩ : BufTy).Contents (Elt Ideal))
    (x6 : (⟨S100000x16, .f32⟩ : BufTy).Contents (Elt Ideal)) (x8 : (⟨S128x128, .f32⟩ : BufTy).Contents (Elt Ideal))
    (x9 : (⟨S128, .f32⟩ : BufTy).Contents (Elt Ideal)) (x14 : (⟨S16x128, .f32⟩ : BufTy).Contents (Elt Ideal))
    (x15 : (⟨S128, .f32⟩ : BufTy).Contents (Elt Ideal)) (x16 : (⟨S16x128, .f32⟩ : BufTy).Contents (Elt Ideal))
    (x17 : (⟨S128, .f32⟩ : BufTy).Contents (Elt Ideal)) (n : Fin 100000) (c : Fin 128) :
    val_main_v58 (F := Ideal) x0 x1 x6 x8 x9 x14 x15 x16 x17 (ix2 n c)
      = Cert.Layer.film x6 x14 x15 x16 x17 (val_main_v48 (F := Ideal) x0 x1 x8 x9) (ix2 n c) := by
  have hg : val_main_v52 (F := Ideal) x6 x14 x15 (ix2 n c) = Cert.Layer.dense x6 x14 x15 (ix2 n c) := by
    unfold val_main_v52 val_main_v51 val_main_v50 val_main_v49
    exact denseStage_at dot_S100000x16_S16x128_S100000x128_1_0_0_1_n_n rfl rfl rfl rfl rfl rfl
      bcast_S128_S1x128_1 bcast_S1x128_S100000x128_0_1 x6 x14 x15 n c
  have hb : val_main_v56 (F := Ideal) x6 x16 x17 (ix2 n c) = Cert.Layer.dense x6 x16 x17 (ix2 n c) := by
    unfold val_main_v56 val_main_v55 val_main_v54 val_main_v53
    exact denseStage_at dot_S100000x16_S16x128_S100000x128_1_0_0_1_n_n rfl rfl rfl rfl rfl rfl
      bcast_S128_S1x128_1 bcast_S1x128_S100000x128_0_1 x6 x16 x17 n c
  show val_main_v52 (F := Ideal) x6 x14 x15 (ix2 n c) * val_main_v48 (F := Ideal) x0 x1 x8 x9 (ix2 n c)
      + val_main_v56 (F := Ideal) x6 x16 x17 (ix2 n c) = _
  rw [hg, hb]
  rfl

/-! ## The fragment network and its conditioning -/

/-- The reference's hidden layer at `(n, k)` is the positive part of the first dense layer's entry there, the rows being
    the fragment aggregate's. -/
theorem ref_hidden_at (x0 : (⟨S100000x128, .f32⟩ : BufTy).Contents (Elt Ideal)) (x1 : (⟨S2x1600000, .i32⟩ : BufTy).Contents (Elt Ideal))
    (x3 : (⟨S2x100000, .i32⟩ : BufTy).Contents (Elt Ideal)) (x5 : (⟨S100000, .i32⟩ : BufTy).Contents (Elt Ideal))
    (x6 : (⟨S100000x16, .f32⟩ : BufTy).Contents (Elt Ideal))
    (x8 : (⟨S128x128, .f32⟩ : BufTy).Contents (Elt Ideal)) (x9 : (⟨S128, .f32⟩ : BufTy).Contents (Elt Ideal))
    (x10 : (⟨S128x256, .f32⟩ : BufTy).Contents (Elt Ideal)) (x11 : (⟨S256, .f32⟩ : BufTy).Contents (Elt Ideal))
    (x14 : (⟨S16x128, .f32⟩ : BufTy).Contents (Elt Ideal)) (x15 : (⟨S128, .f32⟩ : BufTy).Contents (Elt Ideal))
    (x16 : (⟨S16x128, .f32⟩ : BufTy).Contents (Elt Ideal)) (x17 : (⟨S128, .f32⟩ : BufTy).Contents (Elt Ideal))
    (n : Fin 20000) (k : Fin 256) :
    val_main_v80 (F := Ideal) x0 x1 x3 x5 x6 x8 x9 x10 x11 x14 x15 x16 x17 (ix2 n k)
      = max (Cert.Layer.dense (val_main_v75 (F := Ideal) x0 x1 x3 x5 x6 x8 x9 x14 x15 x16 x17) x10 x11 (ix2 n k)) 0 := by
  have hd : val_main_v79 (F := Ideal) x0 x1 x3 x5 x6 x8 x9 x10 x11 x14 x15 x16 x17 (ix2 n k)
      = Cert.Layer.dense (val_main_v75 (F := Ideal) x0 x1 x3 x5 x6 x8 x9 x14 x15 x16 x17) x10 x11 (ix2 n k) := by
    unfold val_main_v79 val_main_v78 val_main_v77 val_main_v76
    exact denseStage_at dot_S20000x128_S128x256_S20000x256_1_0_0_1_n_n rfl rfl rfl rfl rfl rfl
      bcast_S256_S1x256_1 bcast_S1x256_S20000x256_0_1 (val_main_v75 (F := Ideal) x0 x1 x3 x5 x6 x8 x9 x14 x15 x16 x17) x10 x11 n k
  show max (val_main_v79 (F := Ideal) x0 x1 x3 x5 x6 x8 x9 x10 x11 x14 x15 x16 x17 (ix2 n k)) (Ideal.ofBits .f32 0x00000000#32) = _
  rw [hd, Ideal.ofBits_zero_f32]

/-- The reference's fragment network at `(n, c)` is the dense layer of the positive part of a dense layer of the fragment
    aggregate's rows. -/
theorem ref_mlp_at (x0 : (⟨S100000x128, .f32⟩ : BufTy).Contents (Elt Ideal)) (x1 : (⟨S2x1600000, .i32⟩ : BufTy).Contents (Elt Ideal))
    (x3 : (⟨S2x100000, .i32⟩ : BufTy).Contents (Elt Ideal)) (x5 : (⟨S100000, .i32⟩ : BufTy).Contents (Elt Ideal))
    (x6 : (⟨S100000x16, .f32⟩ : BufTy).Contents (Elt Ideal))
    (x8 : (⟨S128x128, .f32⟩ : BufTy).Contents (Elt Ideal)) (x9 : (⟨S128, .f32⟩ : BufTy).Contents (Elt Ideal))
    (x10 : (⟨S128x256, .f32⟩ : BufTy).Contents (Elt Ideal)) (x11 : (⟨S256, .f32⟩ : BufTy).Contents (Elt Ideal))
    (x12 : (⟨S256x128, .f32⟩ : BufTy).Contents (Elt Ideal)) (x13 : (⟨S128, .f32⟩ : BufTy).Contents (Elt Ideal))
    (x14 : (⟨S16x128, .f32⟩ : BufTy).Contents (Elt Ideal)) (x15 : (⟨S128, .f32⟩ : BufTy).Contents (Elt Ideal))
    (x16 : (⟨S16x128, .f32⟩ : BufTy).Contents (Elt Ideal)) (x17 : (⟨S128, .f32⟩ : BufTy).Contents (Elt Ideal))
    (n : Fin 20000) (c : Fin 128) :
    val_main_v84 (F := Ideal) x0 x1 x3 x5 x6 x8 x9 x10 x11 x12 x13 x14 x15 x16 x17 (ix2 n c)
      = Cert.Layer.mlp (val_main_v75 (F := Ideal) x0 x1 x3 x5 x6 x8 x9 x14 x15 x16 x17) x10 x11 x12 x13 (ix2 n c) := by
  unfold val_main_v84 val_main_v83 val_main_v82 val_main_v81
  refine (denseStage_at dot_S20000x256_S256x128_S20000x128_1_0_0_1_n_n rfl rfl rfl rfl rfl rfl
    bcast_S128_S1x128_1 bcast_S1x128_S20000x128_0_1
    (val_main_v80 (F := Ideal) x0 x1 x3 x5 x6 x8 x9 x10 x11 x14 x15 x16 x17) x12 x13 n c).trans ?_
  unfold Cert.Layer.mlp
  exact Cert.Layer.dense_rows
    (fun j => max (Cert.Layer.dense (val_main_v75 (F := Ideal) x0 x1 x3 x5 x6 x8 x9 x14 x15 x16 x17) x10 x11 j) 0)
    (val_main_v80 (F := Ideal) x0 x1 x3 x5 x6 x8 x9 x10 x11 x14 x15 x16 x17) x12 x13 n n c
    (fun k => ref_hidden_at x0 x1 x3 x5 x6 x8 x9 x10 x11 x14 x15 x16 x17 n k)

/-- The reference's second output at `(n, c)` is `γ · h + β` there, `h` the fragment network and `γ`, `β` the dense layers of the
    fragment conditioning rows. -/
theorem ref_out1_at (x0 : (⟨S100000x128, .f32⟩ : BufTy).Contents (Elt Ideal)) (x1 : (⟨S2x1600000, .i32⟩ : BufTy).Contents (Elt Ideal))
    (x3 : (⟨S2x100000, .i32⟩ : BufTy).Contents (Elt Ideal)) (x5 : (⟨S100000, .i32⟩ : BufTy).Contents (Elt Ideal))
    (x6 : (⟨S100000x16, .f32⟩ : BufTy).Contents (Elt Ideal)) (x7 : (⟨S20000x16, .f32⟩ : BufTy).Contents (Elt Ideal))
    (x8 : (⟨S128x128, .f32⟩ : BufTy).Contents (Elt Ideal)) (x9 : (⟨S128, .f32⟩ : BufTy).Contents (Elt Ideal))
    (x10 : (⟨S128x256, .f32⟩ : BufTy).Contents (Elt Ideal)) (x11 : (⟨S256, .f32⟩ : BufTy).Contents (Elt Ideal))
    (x12 : (⟨S256x128, .f32⟩ : BufTy).Contents (Elt Ideal)) (x13 : (⟨S128, .f32⟩ : BufTy).Contents (Elt Ideal))
    (x14 : (⟨S16x128, .f32⟩ : BufTy).Contents (Elt Ideal)) (x15 : (⟨S128, .f32⟩ : BufTy).Contents (Elt Ideal))
    (x16 : (⟨S16x128, .f32⟩ : BufTy).Contents (Elt Ideal)) (x17 : (⟨S128, .f32⟩ : BufTy).Contents (Elt Ideal))
    (x18 : (⟨S16x128, .f32⟩ : BufTy).Contents (Elt Ideal)) (x19 : (⟨S128, .f32⟩ : BufTy).Contents (Elt Ideal))
    (x20 : (⟨S16x128, .f32⟩ : BufTy).Contents (Elt Ideal)) (x21 : (⟨S128, .f32⟩ : BufTy).Contents (Elt Ideal))
    (n : Fin 20000) (c : Fin 128) :
    val_main_v94 (F := Ideal) x0 x1 x3 x5 x6 x7 x8 x9 x10 x11 x12 x13 x14 x15 x16 x17 x18 x19 x20 x21 (ix2 n c)
      = Cert.Layer.film x7 x18 x19 x20 x21
          (Cert.Layer.mlp (val_main_v75 (F := Ideal) x0 x1 x3 x5 x6 x8 x9 x14 x15 x16 x17) x10 x11 x12 x13) (ix2 n c) := by
  have hg : val_main_v88 (F := Ideal) x7 x18 x19 (ix2 n c) = Cert.Layer.dense x7 x18 x19 (ix2 n c) := by
    unfold val_main_v88 val_main_v87 val_main_v86 val_main_v85
    exact denseStage_at dot_S20000x16_S16x128_S20000x128_1_0_0_1_n_n rfl rfl rfl rfl rfl rfl
      bcast_S128_S1x128_1 bcast_S1x128_S20000x128_0_1 x7 x18 x19 n c
  have hb : val_main_v92 (F := Ideal) x7 x20 x21 (ix2 n c) = Cert.Layer.dense x7 x20 x21 (ix2 n c) := by
    unfold val_main_v92 val_main_v91 val_main_v90 val_main_v89
    exact denseStage_at dot_S20000x16_S16x128_S20000x128_1_0_0_1_n_n rfl rfl rfl rfl rfl rfl
      bcast_S128_S1x128_1 bcast_S1x128_S20000x128_0_1 x7 x20 x21 n c
  show val_main_v88 (F := Ideal) x7 x18 x19 (ix2 n c)
        * val_main_v84 (F := Ideal) x0 x1 x3 x5 x6 x8 x9 x10 x11 x12 x13 x14 x15 x16 x17 (ix2 n c)
      + val_main_v92 (F := Ideal) x7 x20 x21 (ix2 n c) = _
  rw [hg, hb, ref_mlp_at x0 x1 x3 x5 x6 x8 x9 x10 x11 x12 x13 x14 x15 x16 x17 n c]
  rfl

end Cert.ReferenceIdeal.RefValues

end
-- ==== Proof.LibGatherScatterRows.lean ====
import Idealize.ShloMosaic.Lib.ValueIdx

/-!
# Gather and scatter of whole rows, and gather of flat entries

Three literal records of StableHLO gather / scatter dimension numbers over generic extents, with what the
operation reads or writes at an index: taking whole rows of a matrix, taking entries of a flat array, and
scattering whole rows into a matrix.
-/

noncomputable section

namespace Idealize.ShloMosaic.ValueIdx

open Idealize.ShloMosaic

/-! ## Scattering whole rows: operand `[N, C]`, scatter indices `[E, 1]`, updates `[E, C]` -/

section ScatterRows

/-- The dimension numbers for scattering rows: update window axis `1`, inserted window axis `0`, the single
    component of a scatter index names operand axis `0`, the index vector on axis `1`. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element `j` that lands on operand element `i` has its scatter index `idx[j₀, 0]`, read signed and
    not clamped, equal to the row `i₀`. -/
theorem scatter_rows_row {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowsScatterDims N E C wf).resultIdx? j idx = some i) :
    (idx (ix2 (j 0) ⟨0, Nat.one_pos⟩)).toInt = ((i 0).val : Int) := by
  unfold ScatterDims.resultIdx? at h
  split at h
  · rename_i hall
    have h0 : ((rowsScatterDims N E C wf).start j idx 0 + (rowsScatterDims N E C wf).window j 0).toNat = (i 0).val :=
      congrArg (fun f : (⟨2, ![N, C]⟩ : Shape).Idx => (f 0).val) (Option.some.inj h)
    have hw : (rowsScatterDims N E C wf).window j 0 = 0 := by
      unfold ScatterDims.window
      rw [dif_neg]
      simp [ScatterDims.sKept, Shape.kept, List.mem_filter]
    have hs : (rowsScatterDims N E C wf).start j idx 0 = (idx (ix2 (j 0) ⟨0, Nat.one_pos⟩)).toInt := by
      unfold ScatterDims.start
      rw [dif_pos (show (0 : Fin 2) ∈ (rowsScatterDims N E C wf).scatterDimsToOperandDims from
        List.mem_singleton.mpr rfl)]
      have hsi : (rowsScatterDims N E C wf).siIdx j
          ⟨List.idxOf (0 : Fin 2) (rowsScatterDims N E C wf).scatterDimsToOperandDims,
            List.idxOf_lt_length_iff.2 (List.mem_singleton.mpr rfl)⟩ = ix2 (j 0) ⟨0, Nat.one_pos⟩ := by
        funext b; refine Fin.ext ?_
        match b with
        | ⟨0, _⟩ => rfl
        | ⟨1, _⟩ => rfl
      rw [hsi]
      rfl
    have hnn := (hall 0).1
    rw [hs, hw] at hnn h0
    simp only [Nat.cast_zero, Int.add_zero] at hnn h0
    rw [← h0, Int.toNat_of_nonneg hnn]
  · exact absurd h (by simp)

end ScatterRows

/-! ## Taking whole rows: operand `[N, C]`, start indices `[E, 1]`, result `[E, C]` -/

section GatherRows
variable {α : Type}

/-- The dimension numbers for taking rows: offset axis `1`, collapsed operand axis `0`, the single component of a
    start index names operand axis `0`, the index vector on axis `1`, slices of one row by all `C` columns. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of the row gather is the operand at row `idx[e, 0]`, read signed and clamped into
    `[0, N − 1]`, and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N E C wf) x idx (ix2 e c) =
      x (ix2 ⟨min (idx (ix2 e ⟨0, Nat.one_pos⟩)).toInt.toNat (N - 1), by omega⟩ c) := by
  have h0 : ((rowsGatherDims N E C wf).operandIdx (ix2 e c) idx (0 : Fin 2)).val =
      min (idx (ix2 e ⟨0, Nat.one_pos⟩)).toInt.toNat (N - 1) := by
    show (rowsGatherDims N E C wf).start (ix2 e c) idx 0 + (rowsGatherDims N E C wf).batchCoord (ix2 e c) 0
      + (rowsGatherDims N E C wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e c)
        ⟨List.idxOf (0 : Fin 2) (rowsGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : ((rowsGatherDims N E C wf).operandIdx (ix2 e c) idx (1 : Fin 2)).val = c.val := by
    show (rowsGatherDims N E C wf).start (ix2 e c) idx 1 + (rowsGatherDims N E C wf).batchCoord (ix2 e c) 1
      + (rowsGatherDims N E C wf).offCoord (ix2 e c) 1 = _
    have hst : (rowsGatherDims N E C wf).start (ix2 e c) idx (1 : Fin 2) = 0 := by
      unfold GatherDims.start
      rw [dif_neg (fun h => absurd (show (1 : Nat) = 0 from congrArg Fin.val (List.mem_singleton.mp h)) Nat.one_ne_zero)]
    have hk : (1 : Fin 2) ∈ (rowsGatherDims N E C wf).sKept :=
      (GatherDims.mem_sKept _ _).mpr ⟨(fun h => absurd (show (1 : Nat) = 0 from congrArg Fin.val (List.mem_singleton.mp h)) Nat.one_ne_zero), List.not_mem_nil⟩
    have hoff : (rowsGatherDims N E C wf).offCoord (ix2 e c) (1 : Fin 2) = c.val := by
      unfold GatherDims.offCoord
      rw [dif_pos hk]
      rfl
    rw [GatherDims.batchCoord_eq_zero _ _ _ List.not_mem_nil, hst, hoff, Nat.add_zero, Nat.zero_add]
  unfold Host.gather
  congr 1
  funext a
  refine Fin.ext ?_
  match a with
  | ⟨0, _⟩ => exact h0
  | ⟨1, _⟩ => exact h1

end GatherRows

/-! ## Taking entries of a flat array: operand `[N]`, start indices `[E, 1]`, result `[E]` -/

section GatherFlat
variable {α : Type}

/-- The dimension numbers for taking entries: no offset axis, collapsed operand axis `0`, the single component of
    a start index names operand axis `0`, the index vector on axis `1`, slices of one entry. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the flat gather is the operand at position `idx[e, 0]`, read signed and clamped into
    `[0, N − 1]`. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e) =
      x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e)
      ⟨List.idxOf (0 : Fin 1) (flatGatherDims N E wf).startIndexMap,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end GatherFlat

end Idealize.ShloMosaic.ValueIdx

end
-- ==== Proof.LibScatterScale.lean ====
/-
  Scaling commutes with a scatter-add of gathered rows, on the extended reals.

  Rows of a matrix `x : [N, C]` are taken at source positions `src[e]` and added into the rows `tgt[e]` of a zero matrix
  (an update whose target is outside `[0, N)` is dropped; a source position is read signed and clamped). Let `d : [N]` be a
  column of scales, each a nonnegative extended real other than `⊤`. Then scaling each source row by its own `d` before the
  gather and the accumulated row `i` by `d[i]` afterwards gives the same matrix as scaling each taken row by
  `d[src[e]] · d[tgt[e]]` before the scatter:

      (Σ_{e : tgt[e] = i} x[src[e], c] · d[src[e]]) · d[i] = Σ_{e : tgt[e] = i} x[src[e], c] · (d[src[e]] · d[tgt[e]]).

  Multiplication of extended reals is associative and commutative, and it distributes over a sum when the factor is
  nonnegative and finite (no `⊤ − ⊤` can arise from scaling), so no finiteness of `x` is needed. The target position used by
  the second gather may be any index array that agrees with the scatter's wherever the scatter's is nonnegative (a
  negative position wrapped around, as array indexing does): an update that lands has its position in `[0, N)`.
-/
import Idealize.ShloMosaic.PureOps.Ideal.Laws
import proofs.«132271_j58033598103709_2_alg».proof.Proof.LibGatherScatterRows

noncomputable section

open scoped BigOperators

namespace Idealize.ShloMosaic.ValueIdx

open Idealize.ShloMosaic

/-- A finite sum of extended reals times a nonnegative factor other than `⊤` is the sum of the products. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- The reciprocal square root of a positive extended real is nonnegative and is not `⊤`. -/
theorem rsqrt_nonneg_ne_top {y : EReal} (hy : 0 < y) : 0 ≤ Ideal.rsqrt y ∧ Ideal.rsqrt y ≠ ⊤ := by
  induction y using EReal.rec with
  | bot => exact absurd hy (by simp)
  | top => exact ⟨by simp, by simp⟩
  | coe r =>
    have hr : 0 < r := by exact_mod_cast hy
    rw [Ideal.rsqrt_coe, if_neg (not_lt.mpr hr.le), if_neg hr.ne']
    exact ⟨by exact_mod_cast (inv_nonneg.mpr (Real.sqrt_nonneg r)), EReal.coe_ne_top _⟩

/-- THE LAW: the accumulated row `i` of pre-scaled gathered rows, scaled by `d[i]`, is the accumulated row of gathered rows
    each scaled by `d[src] · d[tgt]`. -/
theorem scatter_gather_scale {N E C : Nat} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wff : GatherDims.WF ⟨1, ![N]⟩ ⟨2, ![E, 1]⟩ ⟨1, ![E]⟩ [] [0] [] [0] [] 1 ![1])
    (x xs : (⟨2, ![N, C]⟩ : Shape).Idx → EReal) (d : (⟨1, ![N]⟩ : Shape).Idx → EReal)
    (hd : ∀ n, 0 ≤ d n ∧ d n ≠ ⊤)
    (hxs : ∀ (n : Fin N) (c : Fin C), xs (ix2 n c) = x (ix2 n c) * d (ix1 n))
    (src tgt tgtn : IVec ⟨2, ![E, 1]⟩ 32)
    (htn : ∀ e : Fin E, 0 ≤ (tgt (ix2 e ⟨0, Nat.one_pos⟩)).toInt → tgtn (ix2 e ⟨0, Nat.one_pos⟩) = tgt (ix2 e ⟨0, Nat.one_pos⟩))
    (z : (⟨2, ![N, C]⟩ : Shape).Idx → EReal) (hz : ∀ i, z i = 0)
    (u : (⟨2, ![E, C]⟩ : Shape).Idx → EReal)
    (hu : ∀ (e : Fin E) (c : Fin C), u (ix2 e c) = Host.gather (rowsGatherDims N E C wfg) x src (ix2 e c)
      * (Host.gather (flatGatherDims N E wff) d src (ix1 e) * Host.gather (flatGatherDims N E wff) d tgtn (ix1 e)))
    (i : (⟨2, ![N, C]⟩ : Shape).Idx) :
    Ideal.hostScatterAdd (rowsScatterDims N E C wfs) z tgt (Host.gather (rowsGatherDims N E C wfg) xs src) i * d (ix1 (i 0))
      = Ideal.hostScatterAdd (rowsScatterDims N E C wfs) z tgt u i := by
  unfold Ideal.hostScatterAdd
  rw [hz, zero_add, zero_add, sum_mul_of_nonneg_ne_top _ _ (hd _).1 (hd _).2]
  refine Finset.sum_congr rfl fun j hj => ?_
  have hrow := scatter_rows_row wfs tgt j i (Finset.mem_filter.mp hj).2
  obtain ⟨e, c, rfl⟩ : ∃ (e : Fin E) (c : Fin C), j = ix2 e c := ⟨j 0, j 1, eq_ix2 j⟩
  have hrow' : (tgt (ix2 e ⟨0, Nat.one_pos⟩)).toInt = ((i 0).val : Int) := hrow
  have hnn : 0 ≤ (tgt (ix2 e ⟨0, Nat.one_pos⟩)).toInt := by rw [hrow']; exact Int.natCast_nonneg _
  have hi : (i 0).val < N := (i 0).isLt
  have hpos : ix1 (⟨min (tgtn (ix2 e ⟨0, Nat.one_pos⟩)).toInt.toNat (N - 1), by omega⟩ : Fin N) = ix1 (i 0) := by
    refine congrArg ix1 (Fin.ext ?_)
    show min (tgtn (ix2 e ⟨0, Nat.one_pos⟩)).toInt.toNat (N - 1) = (i 0).val
    rw [htn e hnn, hrow', Int.toNat_natCast]
    omega
  rw [hu e c, gather_rows_apply hN wfg xs src e c, gather_rows_apply hN wfg x src e c, gather_flat_apply hN wff d src e,
    gather_flat_apply hN wff d tgtn e, hxs, hpos]
  exact mul_assoc _ _ _

/-- THE LAW, stated on the host's accumulating scatter at the ideal values (which is that exact sum). -/
theorem scatter_gather_scale_host {N E C : Nat} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (wff : GatherDims.WF ⟨1, ![N]⟩ ⟨2, ![E, 1]⟩ ⟨1, ![E]⟩ [] [0] [] [0] [] 1 ![1])
    (x xs : (⟨2, ![N, C]⟩ : Shape).Idx → EReal) (d : (⟨1, ![N]⟩ : Shape).Idx → EReal)
    (hd : ∀ n, 0 ≤ d n ∧ d n ≠ ⊤)
    (hxs : ∀ (n : Fin N) (c : Fin C), xs (ix2 n c) = x (ix2 n c) * d (ix1 n))
    (src tgt tgtn : IVec ⟨2, ![E, 1]⟩ 32)
    (htn : ∀ e : Fin E, 0 ≤ (tgt (ix2 e ⟨0, Nat.one_pos⟩)).toInt → tgtn (ix2 e ⟨0, Nat.one_pos⟩) = tgt (ix2 e ⟨0, Nat.one_pos⟩))
    (z : (⟨2, ![N, C]⟩ : Shape).Idx → EReal) (hz : ∀ i, z i = 0)
    (u : (⟨2, ![E, C]⟩ : Shape).Idx → EReal)
    (hu : ∀ (e : Fin E) (c : Fin C), u (ix2 e c) = Host.gather (rowsGatherDims N E C wfg) x src (ix2 e c)
      * (Host.gather (flatGatherDims N E wff) d src (ix1 e) * Host.gather (flatGatherDims N E wff) d tgtn (ix1 e)))
    (n : Fin N) (q : Fin C) :
    Host.scatterAdd (F := Ideal) (φ := .f32) (rowsScatterDims N E C wfs) z tgt (Host.gather (rowsGatherDims N E C wfg) xs src) (ix2 n q) * d (ix1 n)
      = Host.scatterAdd (F := Ideal) (φ := .f32) (rowsScatterDims N E C wfs) z tgt u (ix2 n q) :=
  scatter_gather_scale hN wfs wfg wff x xs d hd hxs src tgt tgtn htn z hz u hu (ix2 n q)

end Idealize.ShloMosaic.ValueIdx

end
-- ==== Proof.ScaleFacts.lean ====
/-
  The facts about the reference program's own stages that the scaling law asks for.

  * The degree-normalization column `dis = where(deg > 0, rsqrt(max(deg, ε)), 0)` is, at every atom, a nonnegative extended
    real other than `⊤`: where the comparison holds `max(deg, ε) ≥ deg > 0` and the reciprocal square root of a positive
    extended real is nonnegative and finite or zero; elsewhere the value is the zero constant.
  * The wrapped target position `where(t < 0, t + N, t)` is `t` itself wherever `t` is nonnegative.
  * The update array of the reference's scatter, at row `e` and column `c`, is the gathered feature entry times the product
    of the two gathered scales.
  * The printed dimension-number records are the literal records of taking rows, taking entries, and scattering rows.
-/
import proofs.«132271_j58033598103709_2_alg».proof.Proof.RefReadP
import proofs.«132271_j58033598103709_2_alg».proof.Proof.LibScatterScale
import Idealize.ShloMosaic.Lib.ValueIdx

noncomputable section

namespace Cert.ReferenceIdeal.ScaleFacts

open Cert.ReferenceIdeal Cert.ReferenceIdeal.ReadP Idealize.ShloMosaic Idealize.ShloMosaic.ValueIdx

variable [Cert.ReferenceIdeal.Facts]

/-- The column of scales is nonnegative and never `⊤`. -/
theorem dis_nonneg_ne_top (x1 : (⟨S2x1600000, .i32⟩ : BufTy).Contents (Elt Ideal)) (n : S100000.Idx) :
    0 ≤ val_main_v20 (F := Ideal) x1 n ∧ val_main_v20 (F := Ideal) x1 n ≠ ⊤ := by
  rw [val_main_v20_apply, val_main_v16_apply, val_main_v19_apply, val_main_v18_apply, val_main_call0_v1_apply,
    val_main_call0_v0_apply, val_main_cst_3_apply, val_main_v15_apply, val_main_cst_1_apply]
  generalize val_main_v14 (F := Ideal) x1 n = D
  generalize val_main_v17 (F := Ideal) n = e
  show 0 ≤ Scalar.select (Ideal.cmp .ogt D (Ideal.ofBits .f32 0x00000000#32)) (Ideal.rsqrt (max D e)) (Ideal.ofBits .f32 0x00000000#32)
    ∧ Scalar.select (Ideal.cmp .ogt D (Ideal.ofBits .f32 0x00000000#32)) (Ideal.rsqrt (max D e)) (Ideal.ofBits .f32 0x00000000#32) ≠ ⊤
  rw [Ideal.ofBits_zero_f32]
  by_cases hD : (0 : EReal) < D
  · have hc : Ideal.cmp .ogt D 0 = 1#1 := by
      show BitVec.ofBool (decide ((0 : EReal) < D)) = 1#1
      rw [decide_eq_true hD]; rfl
    rw [hc, select_one]
    exact rsqrt_nonneg_ne_top (lt_of_lt_of_le hD (le_max_left _ _))
  · have hc : Ideal.cmp .ogt D 0 = 0#1 := by
      show BitVec.ofBool (decide ((0 : EReal) < D)) = 0#1
      rw [decide_eq_false hD]; rfl
    rw [hc, select_zero]
    exact ⟨le_refl _, EReal.zero_ne_top⟩

/-- A nonnegative target position is not wrapped. -/
theorem tgt_wrap (x1 : (⟨S2x1600000, .i32⟩ : BufTy).Contents (Elt Ideal)) (e : Fin 1700000)
    (h : 0 ≤ (val_main_v47 (F := Ideal) x1 (ix2 e ⟨0, Nat.one_pos⟩)).toInt) :
    val_main_v33 (F := Ideal) x1 (ix2 e ⟨0, Nat.one_pos⟩) = val_main_v47 (F := Ideal) x1 (ix2 e ⟨0, Nat.one_pos⟩) := by
  rw [val_main_v47_apply] at h
  rw [val_main_v33_apply, val_main_v47_apply, val_main_v32_apply, val_main_v29_apply, val_main_v28_apply, val_main_c_5_apply]
  have hj : idx_main_v33 (ix2 e ⟨0, Nat.one_pos⟩) = idx_main_v47 (ix2 e ⟨0, Nat.one_pos⟩) :=
    funext fun a => match a with | ⟨0, _⟩ => rfl
  rw [hj]
  generalize val_main_v6 (F := Ideal) x1 (idx_main_v47 (ix2 e ⟨0, Nat.one_pos⟩)) = t at h ⊢
  have hc : IntOp.cmpi .slt t 0#32 = 0#1 := by
    show BitVec.ofBool (t.slt 0#32) = 0#1
    have : t.slt 0#32 = false := by
      rw [BitVec.slt]
      exact decide_eq_false (by simpa using h)
    rw [this]; rfl
  rw [hc, select_zero]

/-- The printed records are the literal ones. -/
theorem scatter_rows_eq : scatter_S100000x128_S1700000x1_S1700000x128_1_0_0_1
    = rowsScatterDims 100000 1700000 128 scatter_S100000x128_S1700000x1_S1700000x128_1_0_0_1.wf := rfl
theorem gather_rows_eq : gather_S100000x128_S1700000x1_S1700000x128_1_0_n_n_0_1_1128
    = rowsGatherDims 100000 1700000 128 gather_S100000x128_S1700000x1_S1700000x128_1_0_n_n_0_1_1128.wf := rfl
theorem gather_flat_eq : gather_S100000_S1700000x1_S1700000_n_0_n_n_0_1_1
    = flatGatherDims 100000 1700000 gather_S100000_S1700000x1_S1700000_n_0_n_n_0_1_1.wf := rfl

/-- The update array of the reference's scatter at `(e, c)`: the gathered feature entry times the two gathered scales. -/
theorem update_at (x0 : (⟨S100000x128, .f32⟩ : BufTy).Contents (Elt Ideal)) (x1 : (⟨S2x1600000, .i32⟩ : BufTy).Contents (Elt Ideal))
    (x8 : (⟨S128x128, .f32⟩ : BufTy).Contents (Elt Ideal)) (x9 : (⟨S128, .f32⟩ : BufTy).Contents (Elt Ideal)) (e : Fin 1700000) (c : Fin 128) :
    val_main_v45 (F := Ideal) x0 x1 x8 x9 (ix2 e c)
      = Host.gather gather_S100000x128_S1700000x1_S1700000x128_1_0_n_n_0_1_1128 (val_main_v10 (F := Ideal) x0 x8 x9) (val_main_v41 (F := Ideal) x1) (ix2 e c)
        * (Host.gather gather_S100000_S1700000x1_S1700000_n_0_n_n_0_1_1 (val_main_v20 (F := Ideal) x1) (val_main_v41 (F := Ideal) x1) (ix1 e)
          * Host.gather gather_S100000_S1700000x1_S1700000_n_0_n_n_0_1_1 (val_main_v20 (F := Ideal) x1) (val_main_v33 (F := Ideal) x1) (ix1 e)) := by
  rw [val_main_v45_apply, val_main_v44_apply, val_main_v43_apply, val_main_v35_apply]
  have hj : idx_main_v43 (idx_main_v44 (ix2 e c)) = ix1 e := funext fun a => match a with | ⟨0, _⟩ => rfl
  rw [hj]
  rfl

/-- The same, with the dimension numbers spelt as the literal records. -/
theorem update_at_lit (x0 : (⟨S100000x128, .f32⟩ : BufTy).Contents (Elt Ideal)) (x1 : (⟨S2x1600000, .i32⟩ : BufTy).Contents (Elt Ideal))
    (x8 : (⟨S128x128, .f32⟩ : BufTy).Contents (Elt Ideal)) (x9 : (⟨S128, .f32⟩ : BufTy).Contents (Elt Ideal)) (e : Fin 1700000) (c : Fin 128) :
    val_main_v45 (F := Ideal) x0 x1 x8 x9 (ix2 e c)
      = Host.gather (rowsGatherDims 100000 1700000 128 gather_S100000x128_S1700000x1_S1700000x128_1_0_n_n_0_1_1128.wf) (val_main_v10 (F := Ideal) x0 x8 x9) (val_main_v41 (F := Ideal) x1) (ix2 e c)
        * (Host.gather (flatGatherDims 100000 1700000 gather_S100000_S1700000x1_S1700000_n_0_n_n_0_1_1.wf) (val_main_v20 (F := Ideal) x1) (val_main_v41 (F := Ideal) x1) (ix1 e)
          * Host.gather (flatGatherDims 100000 1700000 gather_S100000_S1700000x1_S1700000_n_0_n_n_0_1_1.wf) (val_main_v20 (F := Ideal) x1) (val_main_v33 (F := Ideal) x1) (ix1 e)) := by
  rw [← gather_rows_eq, ← gather_flat_eq]
  exact update_at x0 x1 x8 x9 e c

end Cert.ReferenceIdeal.ScaleFacts

end
-- ==== Proof.AggScale.lean ====
/-
  The accumulated rows agree.

  The kernel program scales each atom's embedded row by `dis` before the rows are taken along the edges and added at the
  targets, and scales the accumulated row `i` by `dis[i]` afterwards; the reference scales each taken row by
  `dis[src] · dis[tgt]` before the scatter. An update only lands on row `i` when its target position is `i`, and `dis` is a
  column of nonnegative extended reals other than `⊤`, so by the scaling law the two accumulated rows are equal. The two
  programs print the same dimension numbers for the gather and the scatter, each under its own name; they are the literal
  records of taking rows and scattering rows.
-/
import proofs.«132271_j58033598103709_2_alg».proof.KernelIdeal
import proofs.«132271_j58033598103709_2_alg».proof.Proof.Gen.KernelIdeal
import proofs.«132271_j58033598103709_2_alg».proof.Proof.RefValues
import proofs.«132271_j58033598103709_2_alg».proof.Proof.ScaleFacts
import Idealize.ShloMosaic.Lib.Pipeline.Value

set_option maxRecDepth 16384

noncomputable section

namespace Cert.Bridge

open Idealize.ShloMosaic Idealize.ShloMosaic.TcCoe Idealize.SL.Sem Idealize.ShloMosaic.ValueIdx

/-! ## The two programs' dimension numbers are the same records -/

theorem scatter_atoms_eq : Cert.KernelIdeal.scatter_S100000x128_S1700000x1_S1700000x128_1_0_0_1
    = Cert.ReferenceIdeal.scatter_S100000x128_S1700000x1_S1700000x128_1_0_0_1 := rfl
theorem gather_atoms_eq : Cert.KernelIdeal.gather_S100000x128_S1700000x1_S1700000x128_1_0_n_n_0_1_1128
    = Cert.ReferenceIdeal.gather_S100000x128_S1700000x1_S1700000x128_1_0_n_n_0_1_1128 := rfl
theorem scatter_frags_eq : Cert.KernelIdeal.scatter_S20000x128_S100000x1_S100000x128_1_0_0_1
    = Cert.ReferenceIdeal.scatter_S20000x128_S100000x1_S100000x128_1_0_0_1 := rfl
theorem gather_frags_eq : Cert.KernelIdeal.gather_S20000x128_S100000x1_S100000x128_1_0_n_n_0_1_1128
    = Cert.ReferenceIdeal.gather_S20000x128_S100000x1_S100000x128_1_0_n_n_0_1_1128 := rfl

/-- A flat array recast as a one-column matrix, at row `n`: the array's entry `n`. -/
theorem column_apply (v : Cert.KernelIdeal.S100000.Idx → EReal) (n : Fin 100000) :
    shapeCast Cert.KernelIdeal.S100000x1 v Cert.KernelIdeal.Gen.shapeCasts_S100000_S100000x1 (ix2 n ⟨0, Nat.one_pos⟩) = v (ix1 n) :=
  shapeCast_apply v Cert.KernelIdeal.Gen.shapeCasts_S100000_S100000x1 (ix2 n ⟨0, Nat.one_pos⟩) (ix1 n)
    (by rewrite [Shape.rowMajor_val_one, Shape.rowMajor_val_two]; show n.val = n.val * 1 + 0; omega)

/-- The zero matrix the reference scatters into. -/
theorem zeros_apply (i : Cert.ReferenceIdeal.S100000x128.Idx) : Cert.ReferenceIdeal.ReadP.val_main_v46 (F := Ideal) i = 0 := by
  rw [Cert.ReferenceIdeal.ReadP.val_main_v46_apply, Cert.ReferenceIdeal.ReadP.val_main_cst_9_apply]
  exact Ideal.ofBits_zero_f32

/-- The embedded row scaled by the one-column matrix of scales is the reference's embedded row times the scale. -/
theorem embed_scaled_at (x0 : (⟨Cert.ReferenceIdeal.S100000x128, .f32⟩ : BufTy).Contents (Elt Ideal)) (x1 : (⟨Cert.ReferenceIdeal.S2x1600000, .i32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (n : Fin 100000) (q : Fin 128) :
    Cert.Layer.denseScaled x0 x8 x9 (shapeCast Cert.KernelIdeal.S100000x1 (Cert.ReferenceIdeal.ReadP.val_main_v20 (F := Ideal) x1) Cert.KernelIdeal.Gen.shapeCasts_S100000_S100000x1) (ix2 n q)
      = Cert.ReferenceIdeal.ReadP.val_main_v10 (F := Ideal) x0 x8 x9 (ix2 n q) * Cert.ReferenceIdeal.ReadP.val_main_v20 (F := Ideal) x1 (ix1 n) := by
  rw [Cert.ReferenceIdeal.RefValues.ref_embed_at]
  unfold Cert.Layer.denseScaled
  show Cert.Layer.dense x0 x8 x9 (ix2 n q) * shapeCast Cert.KernelIdeal.S100000x1 (Cert.ReferenceIdeal.ReadP.val_main_v20 (F := Ideal) x1) Cert.KernelIdeal.Gen.shapeCasts_S100000_S100000x1 (ix2 n ⟨0, Nat.one_pos⟩) = _
  rw [column_apply]

/-- THE ACCUMULATED ROWS AGREE: the kernel program's aggregate, scaled by the column of scales, is the reference's. -/
theorem agg_scale (x0 : (⟨Cert.ReferenceIdeal.S100000x128, .f32⟩ : BufTy).Contents (Elt Ideal)) (x1 : (⟨Cert.ReferenceIdeal.S2x1600000, .i32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal))
    (n : Fin 100000) (q : Fin 128) :
    Host.scatterAdd (F := Ideal) (φ := .f32) Cert.KernelIdeal.scatter_S100000x128_S1700000x1_S1700000x128_1_0_0_1 (Cert.ReferenceIdeal.ReadP.val_main_v46 (F := Ideal)) (Cert.ReferenceIdeal.ReadP.val_main_v47 (F := Ideal) x1)
          (Host.gather Cert.KernelIdeal.gather_S100000x128_S1700000x1_S1700000x128_1_0_n_n_0_1_1128
            (Cert.Layer.denseScaled x0 x8 x9 (shapeCast Cert.KernelIdeal.S100000x1 (Cert.ReferenceIdeal.ReadP.val_main_v20 (F := Ideal) x1) Cert.KernelIdeal.Gen.shapeCasts_S100000_S100000x1))
            (Cert.ReferenceIdeal.ReadP.val_main_v41 (F := Ideal) x1)) (ix2 n q)
      * shapeCast Cert.KernelIdeal.S100000x1 (Cert.ReferenceIdeal.ReadP.val_main_v20 (F := Ideal) x1) Cert.KernelIdeal.Gen.shapeCasts_S100000_S100000x1 (ix2 n ⟨0, Nat.one_pos⟩)
    = Cert.ReferenceIdeal.ReadP.val_main_v48 (F := Ideal) x0 x1 x8 x9 (ix2 n q) := by
  rw [column_apply, scatter_atoms_eq, gather_atoms_eq]
  unfold Cert.ReferenceIdeal.ReadP.val_main_v48
  rw [Cert.ReferenceIdeal.ScaleFacts.scatter_rows_eq, Cert.ReferenceIdeal.ScaleFacts.gather_rows_eq]
  exact scatter_gather_scale_host (N := 100000) (E := 1700000) (C := 128) (by decide) _ _
    Cert.ReferenceIdeal.gather_S100000_S1700000x1_S1700000_n_0_n_n_0_1_1.wf
    (Cert.ReferenceIdeal.ReadP.val_main_v10 (F := Ideal) x0 x8 x9) _ (Cert.ReferenceIdeal.ReadP.val_main_v20 (F := Ideal) x1) (Cert.ReferenceIdeal.ScaleFacts.dis_nonneg_ne_top x1)
    (embed_scaled_at x0 x1 x8 x9)
    (Cert.ReferenceIdeal.ReadP.val_main_v41 (F := Ideal) x1) (Cert.ReferenceIdeal.ReadP.val_main_v47 (F := Ideal) x1) (Cert.ReferenceIdeal.ReadP.val_main_v33 (F := Ideal) x1) (Cert.ReferenceIdeal.ScaleFacts.tgt_wrap x1)
    (Cert.ReferenceIdeal.ReadP.val_main_v46 (F := Ideal)) zeros_apply (Cert.ReferenceIdeal.ReadP.val_main_v45 (F := Ideal) x0 x1 x8 x9) (Cert.ReferenceIdeal.ScaleFacts.update_at_lit x0 x1 x8 x9) n q

/-- The same, as one equation between arrays. -/
theorem agg_scale_fun (x0 : (⟨Cert.ReferenceIdeal.S100000x128, .f32⟩ : BufTy).Contents (Elt Ideal)) (x1 : (⟨Cert.ReferenceIdeal.S2x1600000, .i32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) :
    (fun i : Cert.ReferenceIdeal.S100000x128.Idx =>
      Host.scatterAdd (F := Ideal) (φ := .f32) Cert.KernelIdeal.scatter_S100000x128_S1700000x1_S1700000x128_1_0_0_1 (Cert.ReferenceIdeal.ReadP.val_main_v46 (F := Ideal)) (Cert.ReferenceIdeal.ReadP.val_main_v47 (F := Ideal) x1)
          (Host.gather Cert.KernelIdeal.gather_S100000x128_S1700000x1_S1700000x128_1_0_n_n_0_1_1128
            (Cert.Layer.denseScaled x0 x8 x9 (shapeCast Cert.KernelIdeal.S100000x1 (Cert.ReferenceIdeal.ReadP.val_main_v20 (F := Ideal) x1) Cert.KernelIdeal.Gen.shapeCasts_S100000_S100000x1))
            (Cert.ReferenceIdeal.ReadP.val_main_v41 (F := Ideal) x1)) i
        * shapeCast Cert.KernelIdeal.S100000x1 (Cert.ReferenceIdeal.ReadP.val_main_v20 (F := Ideal) x1) Cert.KernelIdeal.Gen.shapeCasts_S100000_S100000x1 (ix2 (i 0) ⟨0, Nat.one_pos⟩))
    = Cert.ReferenceIdeal.ReadP.val_main_v48 (F := Ideal) x0 x1 x8 x9 := by
  funext i
  obtain ⟨n, q, rfl⟩ : ∃ (n : Fin 100000) (q : Fin 128), i = ix2 n q := ⟨i 0, i 1, eq_ix2 i⟩
  exact agg_scale x0 x1 x8 x9 n q

end Cert.Bridge

end
-- ==== Proof.Bridge.lean ====
/-
  The two programs compute the same two arrays.

  FIRST RESULT. Both programs condition an aggregate of the atoms' embedded rows by `γ · (·) + β`, the same dense layers of
  the same arguments; the kernel program's aggregate, scaled by the column of scales, is the reference's (the accumulated
  rows agree), so the first results are equal entry by entry.

  SECOND RESULT. Both programs pool the first result into fragments, take and add along the fragment edges with the same
  host operations, and apply the same conditioned two-layer network; with equal first results the second results are equal.
-/
import proofs.«132271_j58033598103709_2_alg».proof.Proof.KernelValues
import proofs.«132271_j58033598103709_2_alg».proof.Proof.AggScale

set_option maxRecDepth 16384

noncomputable section

namespace Cert.Bridge

open Idealize.ShloMosaic Idealize.ShloMosaic.TcCoe Idealize.SL.Sem Idealize.ShloMosaic.ValueIdx

/-- THE FIRST RESULT: what the kernel program leaves in its first result buffer is the reference's first result. -/
theorem out0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W8 m ρ c (Proc.devRef .tc Cert.KernelIdeal.main_v29)
      = Cert.ReferenceIdeal.ReadP.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  rw [Cert.KernelIdeal.Values.result0 m ρ c, Cert.Layer.filmScaled_eq_film]
  refine (congrArg (Cert.Layer.film (m ((c.tc : Thread Cert.KernelIdeal.nD Cert.KernelIdeal.τ).loc Cert.KernelIdeal.main_arg6)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
    (agg_scale_fun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))).trans ?_
  funext i
  obtain ⟨n, q, rfl⟩ : ∃ (n : Fin 100000) (q : Fin 128), i = ix2 n q := ⟨i 0, i 1, eq_ix2 i⟩
  rw [Cert.ReferenceIdeal.RefValues.ref_out0_at]

/-- THE SECOND RESULT: likewise, through the same pooling and the same conditioned network. -/
theorem out1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W8 m ρ c (Proc.devRef .tc Cert.KernelIdeal.main_v47)
      = Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) := by
  rw [Cert.KernelIdeal.Values.result1 m ρ c, ← Cert.KernelIdeal.Values.result0 m ρ c, out0 m ρ c, scatter_frags_eq, gather_frags_eq]
  funext i
  obtain ⟨n, q, rfl⟩ : ∃ (n : Fin 20000) (q : Fin 128), i = ix2 n q := ⟨i 0, i 1, eq_ix2 i⟩
  rw [Cert.ReferenceIdeal.RefValues.ref_out1_at]
  unfold Cert.ReferenceIdeal.ReadP.val_main_v75 Cert.ReferenceIdeal.ReadP.val_main_v72 Cert.ReferenceIdeal.ReadP.val_main_v61
  rfl

end Cert.Bridge

end
-- ==== Proof.lean ====
/-
  The proof of `Cert.Claim`. The three frames are the generated ones for the kernel program and for its reading at the
  ideal values, and the reference program's run with its two statements about the results dropped. Nothing is to be
  preserved, because reading the kernel program at the ideal values rewrote none of its operations. At the ideal values,
  from memories that agree on the arguments, the two programs end with equal results because each result of either program
  is one function of the argument arrays and the two functions are equal (the bridge theorems).
-/
import proofs.«132271_j58033598103709_2_alg».proof.Defs
import proofs.«132271_j58033598103709_2_alg».proof.Proof.Gen.Kernel
import proofs.«132271_j58033598103709_2_alg».proof.Proof.Gen.Kernel.Skeleton
import proofs.«132271_j58033598103709_2_alg».proof.Proof.Gen.Kernel.Launch
import proofs.«132271_j58033598103709_2_alg».proof.Proof.Gen.Kernel.Points
import proofs.«132271_j58033598103709_2_alg».proof.Proof.Gen.Kernel.Frame
import proofs.«132271_j58033598103709_2_alg».proof.Proof.Gen.KernelIdeal
import proofs.«132271_j58033598103709_2_alg».proof.Proof.Gen.KernelIdeal.Skeleton
import proofs.«132271_j58033598103709_2_alg».proof.Proof.Gen.KernelIdeal.Launch
import proofs.«132271_j58033598103709_2_alg».proof.Proof.Gen.KernelIdeal.Points
import proofs.«132271_j58033598103709_2_alg».proof.Proof.Gen.KernelIdeal.Frame
import proofs.«132271_j58033598103709_2_alg».proof.Proof.Gen.ReferenceIdeal
import proofs.«132271_j58033598103709_2_alg».proof.Proof.Gen.Pre_finite_inputs
import proofs.«132271_j58033598103709_2_alg».proof.Proof.KernelRun
import proofs.«132271_j58033598103709_2_alg».proof.Proof.RefRunP
import proofs.«132271_j58033598103709_2_alg».proof.Proof.RefReadP
import proofs.«132271_j58033598103709_2_alg».proof.Proof.Bridge
import Idealize.ShloMosaic.Adequacy
import Idealize.ShloMosaic.Init

noncomputable section

namespace Cert.Proof

open Idealize.ShloMosaic Idealize.SL.Sem Cert.Kernel

/-- The kernel program runs to the end and leaves its argument arrays as launched. -/
theorem frame_p : Cert.frame_Kernel := fun m ρ _ => Cert.Kernel.Gen.frame m ρ

/-- The kernel program read at the ideal values runs to the end and leaves its argument arrays as launched. -/
theorem frame_pi : Cert.frame_KernelIdeal := fun m ρ _ => Cert.KernelIdeal.Gen.frame m ρ

/-- The reference program at the ideal values runs to the end and leaves its argument arrays as launched: its run, with
    the two statements about the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Nothing to preserve: reading the kernel program at the ideal values rewrote none of its operations. -/
theorem preserves : Cert.preserves_Kernel_KernelIdeal := trivial

/-- At the ideal values, from memories that agree on the arguments, the kernel program and the reference program end
    with equal results: each result of either program is one function of the argument arrays, and the two functions are
    equal. -/
theorem algebraic : Cert.algebraic_KernelIdeal_ReferenceIdeal := by
  intro m ρ m' ρ' _ hagree
  refine ⟨fun c => Cert.KernelIdeal.Gen.W8 m ρ c (Proc.devRef .tc Cert.KernelIdeal.main_v29),
    fun c => Cert.KernelIdeal.Gen.W8 m ρ c (Proc.devRef .tc Cert.KernelIdeal.main_v47),
    Cert.KernelIdeal.Gen.run_results m ρ, ?_⟩
  refine (θ_run Cert.ReferenceIdeal.defs _ _).mono
    (fun _ h c => ⟨(h c).1.trans ?_, (h c).2.1.trans ?_, (h c).2.2⟩)
    (Cert.ReferenceIdeal.ValueP.run (F := Ideal) m' ρ')
  · rw [Cert.ReferenceIdeal.ReadP.val_main_v58_eq,
      (hagree c).1,
      (hagree c).2.1,
      (hagree c).2.2.2.2.2.2.1,
      (hagree c).2.2.2.2.2.2.2.2.1,
      (hagree c).2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1]
    exact (Cert.Bridge.out0 m ρ c).symm
  · rw [Cert.ReferenceIdeal.ReadP.val_main_v94_eq,
      (hagree c).1,
      (hagree c).2.1,
      (hagree c).2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.1,
      (hagree c).2.2.2.2.2.2.2.2.2.2.2.2.2.2.1,
      (hagree c).2.2.2.2.2.2.2.2.2.2.2.2.2.2.2.1,
      (hagree c).2.2.2.2.2.2.2.2.2.2.2.2.2.2.2.2.1,
      (hagree c).2.2.2.2.2.2.2.2.2.2.2.2.2.2.2.2.2.1,
      (hagree c).2.2.2.2.2.2.2.2.2.2.2.2.2.2.2.2.2.2.1,
      (hagree c).2.2.2.2.2.2.2.2.2.2.2.2.2.2.2.2.2.2.2.1,
      (hagree c).2.2.2.2.2.2.2.2.2.2.2.2.2.2.2.2.2.2.2.2.1,
      (hagree c).2.2.2.2.2.2.2.2.2.2.2.2.2.2.2.2.2.2.2.2.2]
    exact (Cert.Bridge.out1 m ρ c).symm

/-- Everything the certificate claims, behind the generated witnesses of the programs' stated facts. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
